-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x16x128x64 : Shape := ⟨4, ![1, 16, 128, 64]⟩
abbrev S1x16x128x256 : Shape := ⟨4, ![1, 16, 128, 256]⟩
abbrev S16x64x2048 : Shape := ⟨3, ![16, 64, 2048]⟩
abbrev S2 : Shape := ⟨1, ![2]⟩
abbrev S1 : Shape := ⟨1, ![1]⟩
abbrev S_ : Shape := ⟨0, ![]⟩
abbrev S1x16x64x2048 : Shape := ⟨4, ![1, 16, 64, 2048]⟩
abbrev S16x64x256 : Shape := ⟨3, ![16, 64, 256]⟩
abbrev S16x128x64 : Shape := ⟨3, ![16, 128, 64]⟩
abbrev S16x128x256 : Shape := ⟨3, ![16, 128, 256]⟩
abbrev S128x256 : Shape := ⟨2, ![128, 256]⟩
abbrev S1x128x256 : Shape := ⟨3, ![1, 128, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x64x2048, .f32⟩
  | .hbm, ⟨4, _⟩ => ⟨S2x16x64x2048, .f32⟩
  | .hbm, ⟨5, _⟩ => ⟨S2x16x2048x64, .f32⟩
  | .hbm, ⟨6, _⟩ => ⟨S2x16x2048x2048, .f32⟩
  | .local _ .vmem, ⟨0, _⟩ => ⟨S1x16x128x64, .f32⟩
  | .local _ .vmem, ⟨1, _⟩ => ⟨S1x16x128x64, .f32⟩
  | .local _ .vmem, ⟨2, _⟩ => ⟨S1x16x128x64, .f32⟩
  | .local _ .vmem, ⟨3, _⟩ => ⟨S1x16x128x64, .f32⟩
  | .local _ .vmem, ⟨4, _⟩ => ⟨S1x16x128x256, .f32⟩
  | .local _ .vmem, ⟨5, _⟩ => ⟨S1x16x128x256, .f32⟩
  | .local _ .vmem, ⟨6, _⟩ => ⟨S16x64x2048, .f32⟩
  | .local _ .vmem, ⟨7, _⟩ => ⟨S16x64x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 4 → Nat :=
  let arg0 : BitVec 32 := BitVec.ofNat 32 (i 0).val
  let c0_i32_28 : BitVec 32 := 0#32
  let c0_i32_29 : BitVec 32 := 0#32
  let c0_i32_30 : BitVec 32 := 0#32
  ![arg0.toNat, 0, 0, 0]
def k0_mult1 (i : grid0.Coords) : BitVec 32 :=
  let arg2 : BitVec 32 := BitVec.ofNat 32 (i 2).val
  let c256_i32 : BitVec 32 := 256#32
  let v5 : BitVec 32 := Scalar.muli arg2 c256_i32
  v5
def k0_off2 (i : grid0.Coords) : Fin 3 → Nat :=
  let c0 : Index := 0#32
  let c0_2 : Index := 0#32
  let arg2 : BitVec 32 := BitVec.ofNat 32 (i 2).val
  let c256_i32 : BitVec 32 := 256#32
  let v5 : BitVec 32 := Scalar.muli arg2 c256_i32
  let v6 : BitVec 32 := v5
  let v7 : Index := Scalar.indexCast v6
  ![0, 0, v7.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S2x16x2048x64_S2x16x64x2048 : S2x16x2048x64.ShapeCasts S2x16x64x2048
  transposes_S2x16x2048x64_S2x16x64x2048_0_1_3_2 : S2x16x2048x64.Transposes [0, 1, 3, 2] S2x16x64x2048
  inb_S2_S1_0 : ∀ a, (![0] : Fin 1 → Nat) a + S1.size a ≤ S2.size a
  squeezes_S1_S_ : S1.Squeezes S_
  squeezes_S1x16x64x2048_S16x64x2048 : S1x16x64x2048.Squeezes S16x64x2048
  inb_S2_S1_1 : ∀ a, (![1] : Fin 1 → Nat) a + S1.size a ≤ S2.size a
  h_S16x64x256 : 0 < S16x64x256.numel
  bitsLt_bf16_f32 : FTy.bits .bf16 < FTy.bits .f32
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S16x128x64 : S1x16x128x64.ShapeCasts S16x128x64
  reduces_S16x128x256_S128x256 : S16x128x256.Reduces [0] S128x256
  shapeCasts_S128x256_S1x128x256 : S128x256.ShapeCasts S1x128x256
  broadcasts_S1x128x256_S16x128x256 : S1x128x256.Broadcasts S16x128x256
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  shapeCasts_S16x128x256_S1x16x128x256 : S16x128x256.ShapeCasts S1x16x128x256
  shapeCasts_S16x128x64_S1x16x128x64 : S16x128x64.ShapeCasts S1x16x128x64
  dot_S16x128x64_S16x64x256_S16x128x256_2_1_1_2_0_0_wf : DotDims.WF S16x128x64 S16x64x256 S16x128x256 [2] [1] [1] [2] [0] [0]
  dot_S16x128x256_S16x64x256_S16x128x64_2_2_1_1_0_0_wf : DotDims.WF S16x128x256 S16x64x256 S16x128x64 [2] [2] [1] [1] [0] [0]
  hcc0_scratch2 : 6 + S2.numel ≤ 8
  hrank0 : 0 < grid0.rank
  k0_off1_inb : ∀ i : grid0.Coords, ∀ (k0_h1 : k0_cond1 i = 1#1), ∀ a, (k0_off1 i) a + S1x16x64x2048.size a ≤ S2x16x64x2048.size a
  k0_mult1_dvd : ∀ i : grid0.Coords, 128 ∣ (k0_mult1 i).toNat
  k0_off2_inb : ∀ i : grid0.Coords, ∀ a, (k0_off2 i) a + S16x64x256.size a ≤ S16x64x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x64.size a ≤ S2x16x2048x64.size a
  hwx0_0 : ∀ i : grid0.Coords, EltTy.bits .f32 = 32 ∨ (Rect.block (s := S2x16x2048x64) S1x16x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S1x16x128x64.size a ≤ S2x16x2048x64.size a
  hwx0_1 : ∀ i : grid0.Coords, EltTy.bits .f32 = 32 ∨ (Rect.block (s := S2x16x2048x64) S1x16x128x64.size (cc0_transform_3 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_4 i = cc0_transform_4 i'
  hinb0_2 : ∀ (i : grid0.Coords) a, (cc0_transform_4 i a + 1) * S1x16x128x256.size a ≤ S2x16x2048x2048.size a
  hwx0_2 : ∀ i : grid0.Coords, EltTy.bits .f32 = 32 ∨ (Rect.block (s := S2x16x2048x2048) S1x16x128x256.size (cc0_transform_4 i) (hinb0_2 i)).WholeWords (EltTy.packing .f32)

variable [Facts₀]

abbrev cc0_scratch2 : DmaSems sig S2 := SemArray.consecutive 6 S2 hcc0_scratch2
def dot_S16x128x64_S16x64x256_S16x128x256_2_1_1_2_0_0 : DotDims S16x128x64 S16x64x256 S16x128x256 where
  lhsContracting := [2]
  rhsContracting := [1]
  lhsNonContracting := [1]
  rhsNonContracting := [2]
  lhsBatch := [0]
  rhsBatch := [0]
  wf := dot_S16x128x64_S16x64x256_S16x128x256_2_1_1_2_0_0_wf
def dot_S16x128x256_S16x64x256_S16x128x64_2_2_1_1_0_0 : DotDims S16x128x256 S16x64x256 S16x128x64 where
  lhsContracting := [2]
  rhsContracting := [2]
  lhsNonContracting := [1]
  rhsNonContracting := [1]
  lhsBatch := [0]
  rhsBatch := [0]
  wf := dot_S16x128x256_S16x64x256_S16x128x64_2_2_1_1_0_0_wf

abbrev win0_0 : Pipeline.Window sig grid0 :=
  Pipeline.Window.ofSpec (Memref.whole main_arg0) S1x16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x16x128x64.size cc0_transform_3 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x16x128x256.size cc0_transform_4 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x2048x2048 : Shape := ⟨3, ![2, 2048, 2048]⟩
abbrev S2x1x2048x2048 : Shape := ⟨4, ![2, 1, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x64x2048, .f32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x2048x2048, .f32⟩
  | .hbm, ⟨10, _⟩ => ⟨S_, .f32⟩
  | .hbm, ⟨11, _⟩ => ⟨S2x2048x2048, .f32⟩
  | .hbm, ⟨12, _⟩ => ⟨S2x2048x2048, .f32⟩
  | .hbm, ⟨13, _⟩ => ⟨S2x1x2048x2048, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x2048x2048, .f32⟩
  | .hbm, ⟨19, _⟩ => ⟨S2x1x2048x2048, .f32⟩
  | .hbm, ⟨20, _⟩ => ⟨S2x16x2048x2048, .f32⟩
  | .hbm, ⟨21, _⟩ => ⟨S2x16x2048x2048, .f32⟩
  | .hbm, ⟨22, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S2x16x2048x64_S2x16x64x2048 : S2x16x2048x64.ShapeCasts S2x16x64x2048
  bcast_S_S2x16x2048x2048 : S_.BroadcastsInDim S2x16x2048x2048 (![] : Fin 0 → Fin S2x16x2048x2048.rank)
  reducesTo_S2x16x2048x2048_S2x2048x2048_d1 : S2x16x2048x2048.ReducesTo [1] S2x2048x2048
  h_S_ : 0 < S_.numel
  bcast_S_S2x2048x2048 : S_.BroadcastsInDim S2x2048x2048 (![] : Fin 0 → Fin S2x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics both programs compute, stated once over plain functions.

  For a batch `b`, query row `i`, key column `j` and head `h` the score is
  `s h = (∑ d, q b h i d · k b h d j) · c` with `c` the scale; the weight is the softmax of `s` ACROSS THE
  HEADS `h` (not across the key columns): `w h = exp (s h - max s) / ∑ h', exp (s h' - max s)`.  The output is
  `o b h i d = ∑ j, w b h i j · v b h j d`.  Everything is over the extended reals, where `+` and `max` are
  commutative and associative, so neither the tiling of the key axis nor the order of any sum matters.
-/
import Idealize.ShloMosaic.PureOps.Ideal
import Idealize.ShloMosaic.PureOps.Ideal.Laws
import Idealize.ShloMosaic.Lib.ValueIdx

noncomputable section

open scoped BigOperators

namespace Attn

open Idealize.ShloMosaic Idealize.ShloMosaic.ValueIdx

/-- The score scale, one eighth, as the word the kernel multiplies by. -/
abbrev scaleW : EReal := Ideal.ofBits .f32 0x3E000000#32
/-- The value the maxima start from: minus infinity's word. -/
abbrev botW : EReal := Ideal.ofBits .f32 0xFF800000#32

/-- One score: the scaled inner product of a query row and a key column over the 64 features. -/
def score (q k : Fin 64 → EReal) : EReal := (∑ d : Fin 64, q d * k d) * scaleW

/-- The largest of the sixteen heads' scores (from minus infinity). -/
def smax (s : Fin 16 → EReal) : EReal := (Finset.univ : Finset (Fin 16)).fold max botW s

/-- A head's unnormalized weight. -/
def sexp (s : Fin 16 → EReal) (h : Fin 16) : EReal := Ideal.exp (s h - smax s)

/-- A head's weight: the softmax across the sixteen heads. -/
def softmax (s : Fin 16 → EReal) (h : Fin 16) : EReal := Ideal.div (sexp s h) (∑ h' : Fin 16, sexp s h')

abbrev QIdx := (⟨4, ![2, 16, 2048, 64]⟩ : Shape).Idx
abbrev KIdx := (⟨4, ![2, 16, 64, 2048]⟩ : Shape).Idx
abbrev WIdx := (⟨4, ![2, 16, 2048, 2048]⟩ : Shape).Idx

/-- The sixteen heads' scores at batch `b`, query row `i`, key column `j`: `Q` is the query array, `K` the key
    array already laid out as (batch, head, feature, column). -/
def scores (Q : QIdx → EReal) (K : KIdx → EReal) (b : Fin 2) (i j : Fin 2048) (h : Fin 16) : EReal :=
  score (fun d => Q (ix4 b h i d)) (fun d => K (ix4 b h d j))

/-- THE WEIGHTS: the whole (2, 16, 2048, 2048) array of softmax weights. -/
def weights (Q : QIdx → EReal) (K : KIdx → EReal) : WIdx → EReal :=
  fun x => softmax (scores Q K (x 0) (x 2) (x 3)) (x 1)

/-- THE OUTPUT: the weights times the values, `VT` being the value array laid out as (batch, head, feature, column). -/
def output (Q : QIdx → EReal) (K VT : KIdx → EReal) : QIdx → EReal :=
  fun x => ∑ j : Fin 2048, weights Q K (ix4 (x 0) (x 1) (x 2) j) * VT (ix4 (x 0) (x 1) (x 3) j)

/-! ## The key axis in eight tiles of 256 -/

/-- Column `jj` of key tile `p`. -/
abbrev col (p : Fin 8) (jj : Fin 256) : Fin 2048 := ⟨p.val * 256 + jj.val, by have := p.isLt; have := jj.isLt; omega⟩

/-- A sum over the 2048 columns is the sum over the eight tiles of the sums over each tile's 256 columns. -/
theorem sum_cols {M : Type*} [AddCommMonoid M] (f : Fin 2048 → M) : ∑ j : Fin 2048, f j = ∑ p : Fin 8, ∑ jj : Fin 256, f (col p jj) := by
  rw [← Fintype.sum_prod_type']
  refine (Fintype.sum_equiv (finProdFinEquiv (m := 8) (n := 256)) (fun x => f (col x.1 x.2)) f (fun x => ?_)).symm
  exact congrArg f (Fin.ext (by show x.1.val * 256 + x.2.val = x.2.val + 256 * x.1.val; omega))

/-- One tile's contribution to the output at (batch `b`, head `h`, row `i`, feature `d`). -/
def tileTerm (Q : QIdx → EReal) (K VT : KIdx → EReal) (b : Fin 2) (h : Fin 16) (i : Fin 2048) (d : Fin 64) (p : Fin 8) : EReal :=
  ∑ jj : Fin 256, weights Q K (ix4 b h i (col p jj)) * VT (ix4 b h d (col p jj))

/-- The tiles up to and including tile `k`, summed: what the accumulator holds after tile `k`. -/
def partialOut (Q : QIdx → EReal) (K VT : KIdx → EReal) (b : Fin 2) (h : Fin 16) (i : Fin 2048) (d : Fin 64) (k : ℕ) : EReal :=
  ∑ p ∈ (Finset.univ : Finset (Fin 8)).filter (fun p => p.val ≤ k), tileTerm Q K VT b h i d p

theorem partialOut_zero (Q : QIdx → EReal) (K VT : KIdx → EReal) (b : Fin 2) (h : Fin 16) (i : Fin 2048) (d : Fin 64) :
    partialOut Q K VT b h i d 0 = tileTerm Q K VT b h i d 0 := by
  unfold partialOut
  have : (Finset.univ : Finset (Fin 8)).filter (fun p => p.val ≤ 0) = {0} := by decide
  rw [this, Finset.sum_singleton]

theorem partialOut_succ (Q : QIdx → EReal) (K VT : KIdx → EReal) (b : Fin 2) (h : Fin 16) (i : Fin 2048) (d : Fin 64)
    (k : ℕ) (hk : k + 1 < 8) :
    partialOut Q K VT b h i d (k + 1) = partialOut Q K VT b h i d k + tileTerm Q K VT b h i d ⟨k + 1, hk⟩ := by
  unfold partialOut
  have : (Finset.univ : Finset (Fin 8)).filter (fun p => p.val ≤ k + 1)
      = insert ⟨k + 1, hk⟩ ((Finset.univ : Finset (Fin 8)).filter (fun p => p.val ≤ k)) := by
    ext p
    simp only [Finset.mem_filter, Finset.mem_univ, true_and, Finset.mem_insert]
    constructor
    · intro hp
      by_cases e : p.val = k + 1
      · exact Or.inl (Fin.ext e)
      · exact Or.inr (by omega)
    · rintro (rfl | hp)
      · exact le_refl _
      · omega
  rw [this, Finset.sum_insert (by simp), add_comm]

/-- After the last tile the accumulator holds the output. -/
theorem partialOut_last (Q : QIdx → EReal) (K VT : KIdx → EReal) (b : Fin 2) (h : Fin 16) (i : Fin 2048) (d : Fin 64) :
    partialOut Q K VT b h i d 7 = output Q K VT (ix4 b h i d) := by
  unfold partialOut output
  have : (Finset.univ : Finset (Fin 8)).filter (fun p => p.val ≤ 7) = Finset.univ := by decide
  rw [this, sum_cols]
  rfl

end Attn

end
-- ==== Proof.Payload.lean ====
/-
  The kernel body's arithmetic, read at an index over the extended reals.

  The body takes a (16, 64, 256) tile `kt` of keys (head, feature, column), a tile `vt` of values in the same
  layout, and a (1, 16, 128, 64) block `qb` of queries.  Its weights at (head h, row i, column j) are the softmax
  across the heads of the scaled inner products of query row i with key column j; its contribution to the output at
  (h, i, d) is the sum over the tile's 256 columns of weight times value.
-/
import proofs.«165156_j19481971654760_2_alg».proof.Proof.Spec
import proofs.«165156_j19481971654760_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The two products' operand indices, axis by axis -/

theorem qk_lhs_0 (x : S16x128x256.Idx) (q : dot_S16x128x64_S16x64x256_S16x128x256_2_1_1_2_0_0.contr.Idx) :
    (dot_S16x128x64_S16x64x256_S16x128x256_2_1_1_2_0_0.lhsIdx x q 0).val = (x 0).val := by
  unfold DotDims.lhsIdx
  rw [dif_pos (show (0 : Fin S16x128x64.rank) ∈ dot_S16x128x64_S16x64x256_S16x128x256_2_1_1_2_0_0.lhsBatch by decide)]
  rfl
theorem qk_lhs_1 (x : S16x128x256.Idx) (q : dot_S16x128x64_S16x64x256_S16x128x256_2_1_1_2_0_0.contr.Idx) :
    (dot_S16x128x64_S16x64x256_S16x128x256_2_1_1_2_0_0.lhsIdx x q 1).val = (x 1).val := by
  unfold DotDims.lhsIdx
  rw [dif_neg (show ¬(1 : Fin S16x128x64.rank) ∈ dot_S16x128x64_S16x64x256_S16x128x256_2_1_1_2_0_0.lhsBatch by decide), dif_pos (show (1 : Fin S16x128x64.rank) ∈ dot_S16x128x64_S16x64x256_S16x128x256_2_1_1_2_0_0.lhsNonContracting by decide)]
  rfl
theorem qk_lhs_2 (x : S16x128x256.Idx) (q : dot_S16x128x64_S16x64x256_S16x128x256_2_1_1_2_0_0.contr.Idx) :
    (dot_S16x128x64_S16x64x256_S16x128x256_2_1_1_2_0_0.lhsIdx x q 2).val = (q ⟨0, by decide⟩).val :=
  dot_S16x128x64_S16x64x256_S16x128x256_2_1_1_2_0_0.lhsIdx_val_of_single rfl x q
theorem qk_rhs_0 (x : S16x128x256.Idx) (q : dot_S16x128x64_S16x64x256_S16x128x256_2_1_1_2_0_0.contr.Idx) :
    (dot_S16x128x64_S16x64x256_S16x128x256_2_1_1_2_0_0.rhsIdx x q 0).val = (x 0).val := by
  unfold DotDims.rhsIdx
  rw [dif_pos (show (0 : Fin S16x64x256.rank) ∈ dot_S16x128x64_S16x64x256_S16x128x256_2_1_1_2_0_0.rhsBatch by decide)]
  rfl
theorem qk_rhs_1 (x : S16x128x256.Idx) (q : dot_S16x128x64_S16x64x256_S16x128x256_2_1_1_2_0_0.contr.Idx) :
    (dot_S16x128x64_S16x64x256_S16x128x256_2_1_1_2_0_0.rhsIdx x q 1).val = (q ⟨0, by decide⟩).val :=
  dot_S16x128x64_S16x64x256_S16x128x256_2_1_1_2_0_0.rhsIdx_val_of_single rfl x q
theorem qk_rhs_2 (x : S16x128x256.Idx) (q : dot_S16x128x64_S16x64x256_S16x128x256_2_1_1_2_0_0.contr.Idx) :
    (dot_S16x128x64_S16x64x256_S16x128x256_2_1_1_2_0_0.rhsIdx x q 2).val = (x 2).val := by
  unfold DotDims.rhsIdx
  rw [dif_neg (show ¬(2 : Fin S16x64x256.rank) ∈ dot_S16x128x64_S16x64x256_S16x128x256_2_1_1_2_0_0.rhsBatch by decide), dif_pos (show (2 : Fin S16x64x256.rank) ∈ dot_S16x128x64_S16x64x256_S16x128x256_2_1_1_2_0_0.rhsNonContracting by decide)]
  rfl
theorem wv_lhs_0 (x : S16x128x64.Idx) (q : dot_S16x128x256_S16x64x256_S16x128x64_2_2_1_1_0_0.contr.Idx) :
    (dot_S16x128x256_S16x64x256_S16x128x64_2_2_1_1_0_0.lhsIdx x q 0).val = (x 0).val := by
  unfold DotDims.lhsIdx
  rw [dif_pos (show (0 : Fin S16x128x256.rank) ∈ dot_S16x128x256_S16x64x256_S16x128x64_2_2_1_1_0_0.lhsBatch by decide)]
  rfl
theorem wv_lhs_1 (x : S16x128x64.Idx) (q : dot_S16x128x256_S16x64x256_S16x128x64_2_2_1_1_0_0.contr.Idx) :
    (dot_S16x128x256_S16x64x256_S16x128x64_2_2_1_1_0_0.lhsIdx x q 1).val = (x 1).val := by
  unfold DotDims.lhsIdx
  rw [dif_neg (show ¬(1 : Fin S16x128x256.rank) ∈ dot_S16x128x256_S16x64x256_S16x128x64_2_2_1_1_0_0.lhsBatch by decide), dif_pos (show (1 : Fin S16x128x256.rank) ∈ dot_S16x128x256_S16x64x256_S16x128x64_2_2_1_1_0_0.lhsNonContracting by decide)]
  rfl
theorem wv_lhs_2 (x : S16x128x64.Idx) (q : dot_S16x128x256_S16x64x256_S16x128x64_2_2_1_1_0_0.contr.Idx) :
    (dot_S16x128x256_S16x64x256_S16x128x64_2_2_1_1_0_0.lhsIdx x q 2).val = (q ⟨0, by decide⟩).val :=
  dot_S16x128x256_S16x64x256_S16x128x64_2_2_1_1_0_0.lhsIdx_val_of_single rfl x q
theorem wv_rhs_0 (x : S16x128x64.Idx) (q : dot_S16x128x256_S16x64x256_S16x128x64_2_2_1_1_0_0.contr.Idx) :
    (dot_S16x128x256_S16x64x256_S16x128x64_2_2_1_1_0_0.rhsIdx x q 0).val = (x 0).val := by
  unfold DotDims.rhsIdx
  rw [dif_pos (show (0 : Fin S16x64x256.rank) ∈ dot_S16x128x256_S16x64x256_S16x128x64_2_2_1_1_0_0.rhsBatch by decide)]
  rfl
theorem wv_rhs_1 (x : S16x128x64.Idx) (q : dot_S16x128x256_S16x64x256_S16x128x64_2_2_1_1_0_0.contr.Idx) :
    (dot_S16x128x256_S16x64x256_S16x128x64_2_2_1_1_0_0.rhsIdx x q 1).val = (x 2).val := by
  unfold DotDims.rhsIdx
  rw [dif_neg (show ¬(1 : Fin S16x64x256.rank) ∈ dot_S16x128x256_S16x64x256_S16x128x64_2_2_1_1_0_0.rhsBatch by decide), dif_pos (show (1 : Fin S16x64x256.rank) ∈ dot_S16x128x256_S16x64x256_S16x128x64_2_2_1_1_0_0.rhsNonContracting by decide)]
  rfl
theorem wv_rhs_2 (x : S16x128x64.Idx) (q : dot_S16x128x256_S16x64x256_S16x128x64_2_2_1_1_0_0.contr.Idx) :
    (dot_S16x128x256_S16x64x256_S16x128x64_2_2_1_1_0_0.rhsIdx x q 2).val = (q ⟨0, by decide⟩).val :=
  dot_S16x128x256_S16x64x256_S16x128x64_2_2_1_1_0_0.rhsIdx_val_of_single rfl x q

/-- The first product at (h, i, j): the inner product over the 64 features of query row (h, i) and key column (h, j). -/
theorem qk_apply (q : FVec Ideal S16x128x64 .bf16) (k : FVec Ideal S16x64x256 .bf16) (h : Fin 16) (i : Fin 128) (j : Fin 256) :
    matmul dot_S16x128x64_S16x64x256_S16x128x256_2_1_1_2_0_0 none q k (constant S16x128x256 .f32 0x00000000#32) (ix3 h i j)
      = ∑ d : Fin 64, q (ix3 h i d) * k (ix3 h d j) := by
  simp only [matmul]
  rw [Ideal.matmul_constant_zero_apply, ← Equiv.sum_comp (contrEquiv1 dot_S16x128x64_S16x64x256_S16x128x256_2_1_1_2_0_0 64 rfl rfl).symm]
  refine Finset.sum_congr rfl fun d _ => ?_
  have hk := contrEquiv1_symm_val dot_S16x128x64_S16x64x256_S16x128x256_2_1_1_2_0_0 64 rfl rfl d
  have el : dot_S16x128x64_S16x64x256_S16x128x256_2_1_1_2_0_0.lhsIdx (ix3 h i j) ((contrEquiv1 dot_S16x128x64_S16x64x256_S16x128x256_2_1_1_2_0_0 64 rfl rfl).symm d) = ix3 h i d :=
    funext fun a => Fin.ext (by
      match a with
      | ⟨0, _⟩ => exact qk_lhs_0 _ _
      | ⟨1, _⟩ => exact qk_lhs_1 _ _
      | ⟨2, _⟩ => exact (qk_lhs_2 _ _).trans hk)
  have er : dot_S16x128x64_S16x64x256_S16x128x256_2_1_1_2_0_0.rhsIdx (ix3 h i j) ((contrEquiv1 dot_S16x128x64_S16x64x256_S16x128x256_2_1_1_2_0_0 64 rfl rfl).symm d) = ix3 h d j :=
    funext fun a => Fin.ext (by
      match a with
      | ⟨0, _⟩ => exact qk_rhs_0 _ _
      | ⟨1, _⟩ => exact (qk_rhs_1 _ _).trans hk
      | ⟨2, _⟩ => exact qk_rhs_2 _ _)
  rw [el, er]

/-- The second product at (h, i, d): the sum over the tile's 256 columns of weight (h, i, j) times value (h, d, j). -/
theorem wv_apply (w : FVec Ideal S16x128x256 .bf16) (v : FVec Ideal S16x64x256 .bf16) (h : Fin 16) (i : Fin 128) (d : Fin 64) :
    matmul dot_S16x128x256_S16x64x256_S16x128x64_2_2_1_1_0_0 none w v (constant S16x128x64 .f32 0x00000000#32) (ix3 h i d)
      = ∑ j : Fin 256, w (ix3 h i j) * v (ix3 h d j) := by
  simp only [matmul]
  rw [Ideal.matmul_constant_zero_apply, ← Equiv.sum_comp (contrEquiv1 dot_S16x128x256_S16x64x256_S16x128x64_2_2_1_1_0_0 256 rfl rfl).symm]
  refine Finset.sum_congr rfl fun j _ => ?_
  have hk := contrEquiv1_symm_val dot_S16x128x256_S16x64x256_S16x128x64_2_2_1_1_0_0 256 rfl rfl j
  have el : dot_S16x128x256_S16x64x256_S16x128x64_2_2_1_1_0_0.lhsIdx (ix3 h i d) ((contrEquiv1 dot_S16x128x256_S16x64x256_S16x128x64_2_2_1_1_0_0 256 rfl rfl).symm j) = ix3 h i j :=
    funext fun a => Fin.ext (by
      match a with
      | ⟨0, _⟩ => exact wv_lhs_0 _ _
      | ⟨1, _⟩ => exact wv_lhs_1 _ _
      | ⟨2, _⟩ => exact (wv_lhs_2 _ _).trans hk)
  have er : dot_S16x128x256_S16x64x256_S16x128x64_2_2_1_1_0_0.rhsIdx (ix3 h i d) ((contrEquiv1 dot_S16x128x256_S16x64x256_S16x128x64_2_2_1_1_0_0 256 rfl rfl).symm j) = ix3 h d j :=
    funext fun a => Fin.ext (by
      match a with
      | ⟨0, _⟩ => exact wv_rhs_0 _ _
      | ⟨1, _⟩ => exact wv_rhs_1 _ _
      | ⟨2, _⟩ => exact (wv_rhs_2 _ _).trans hk)
  rw [el, er]

/-! ## The softmax across the heads, on a (16, 128, 256) tile of scores -/

/-- Inserting head `k` in front of (row i, column j) gives (k, i, j). -/
theorem lift_heads (i : Fin 128) (j : Fin 256) (k : Fin 16) :
    reduces_S16x128x256_S128x256.lift (ix2 i j) k = ix3 k i j :=
  funext fun a => Fin.ext (by match a with | ⟨0, _⟩ => rfl | ⟨1, _⟩ => rfl | ⟨2, _⟩ => rfl)

/-- A (128, 256) array viewed (1, 128, 256) and broadcast over the 16 heads reads (h, i, j) at (i, j). -/
theorem bcastHeads_apply (y : FVec Ideal S128x256 .f32) (h : Fin 16) (i : Fin 128) (j : Fin 256) :
    broadcastTo S16x128x256 (shapeCast S1x128x256 y shapeCasts_S128x256_S1x128x256) broadcasts_S1x128x256_S16x128x256 (ix3 h i j)
      = y (ix2 i j) := by
  rw [broadcastTo_apply _ broadcasts_S1x128x256_S16x128x256 (ix3 h i j) (ix3 (0 : Fin 1) i j) (fun a => by
        match a with
        | ⟨0, _⟩ => show (0 : ℕ) = if (1 : ℕ) = 1 then 0 else _; rw [if_pos rfl]
        | ⟨1, _⟩ => show i.val = if (128 : ℕ) = 1 then 0 else i.val; rw [if_neg (by decide)]
        | ⟨2, _⟩ => show j.val = if (256 : ℕ) = 1 then 0 else j.val; rw [if_neg (by decide)])]
  exact shapeCast_apply y shapeCasts_S128x256_S1x128x256 (ix3 (0 : Fin 1) i j) (ix2 i j) (by
    rw [Shape.rowMajor_val_two, Shape.rowMajor_val_three]
    show i.val * 256 + j.val = (0 * 128 + i.val) * 256 + j.val
    omega)

/-- The heads' maximum at (row i, column j), from minus infinity. -/
theorem headMax_apply (x : FVec Ideal S16x128x256 .f32) (i : Fin 128) (j : Fin 256) :
    multiReduction .maximumf [0] S128x256 x 0xFF800000#32 reduces_S16x128x256_S128x256 (.inl rfl) rfl (ix2 i j)
      = Attn.smax (fun h' => x (ix3 h' i j)) := by
  refine (Ideal.multiReduction_maximumf_single x 0xFF800000#32 reduces_S16x128x256_S128x256 (.inl rfl) rfl (ix2 i j)).trans ?_
  have e : (x ∘ reduces_S16x128x256_S128x256.lift (ix2 i j)) = fun h' : Fin 16 => x (ix3 h' i j) :=
    funext fun k => congrArg x (lift_heads i j k)
  rw [e]
  rfl

/-- The heads' sum at (row i, column j). -/
theorem headSum_apply (x : FVec Ideal S16x128x256 .f32) (i : Fin 128) (j : Fin 256) :
    multiReduction .add [0] S128x256 x 0x00000000#32 reduces_S16x128x256_S128x256 (.inl rfl) rfl (ix2 i j)
      = ∑ h' : Fin 16, x (ix3 h' i j) := by
  refine (Ideal.multiReduction_add_single x 0x00000000#32 reduces_S16x128x256_S128x256 (.inl rfl) rfl (ix2 i j)).trans ?_
  exact Finset.sum_congr rfl fun k _ => congrArg x (lift_heads i j k)

/-- The body's softmax of a score tile `x`, spelled as the body spells it, at (h, i, j): the softmax across the
    heads of the sixteen scores at (i, j). -/
theorem softmaxTile_apply (x : FVec Ideal S16x128x256 .f32) (h : Fin 16) (i : Fin 128) (j : Fin 256) :
    divf
        (exp (subf x (broadcastTo S16x128x256 (shapeCast S1x128x256
          (multiReduction .maximumf [0] S128x256 x 0xFF800000#32 reduces_S16x128x256_S128x256 (.inl rfl) rfl)
          shapeCasts_S128x256_S1x128x256) broadcasts_S1x128x256_S16x128x256)))
        (broadcastTo S16x128x256 (shapeCast S1x128x256
          (multiReduction .add [0] S128x256
            (exp (subf x (broadcastTo S16x128x256 (shapeCast S1x128x256
              (multiReduction .maximumf [0] S128x256 x 0xFF800000#32 reduces_S16x128x256_S128x256 (.inl rfl) rfl)
              shapeCasts_S128x256_S1x128x256) broadcasts_S1x128x256_S16x128x256)))
            0x00000000#32 reduces_S16x128x256_S128x256 (.inl rfl) rfl)
          shapeCasts_S128x256_S1x128x256) broadcasts_S1x128x256_S16x128x256)
        (ix3 h i j)
      = Attn.softmax (fun h' => x (ix3 h' i j)) h := by
  have hexp : ∀ h' : Fin 16,
      exp (subf x (broadcastTo S16x128x256 (shapeCast S1x128x256
          (multiReduction .maximumf [0] S128x256 x 0xFF800000#32 reduces_S16x128x256_S128x256 (.inl rfl) rfl)
          shapeCasts_S128x256_S1x128x256) broadcasts_S1x128x256_S16x128x256)) (ix3 h' i j)
        = Attn.sexp (fun h'' => x (ix3 h'' i j)) h' := by
    intro h'
    show Ideal.exp (x (ix3 h' i j) - _) = _
    rw [bcastHeads_apply, headMax_apply]
    rfl
  rw [divf_apply, bcastHeads_apply, headSum_apply, hexp]
  unfold Attn.softmax
  exact congrArg _ (Finset.sum_congr rfl fun h' _ => hexp h')

/-! ## The five payloads -/

/-- The query block (1, 16, 128, 64) viewed (16, 128, 64) reads (h, i, d) at (0, h, i, d). -/
theorem dropUnitQ_apply (qb : FVec Ideal S1x16x128x64 .f32) (h : Fin 16) (i : Fin 128) (d : Fin 64) :
    shapeCast S16x128x64 qb shapeCasts_S1x16x128x64_S16x128x64 (ix3 h i d) = qb (ix4 (0 : Fin 1) h i d) :=
  shapeCast_apply qb shapeCasts_S1x16x128x64_S16x128x64 (ix3 h i d) (ix4 (0 : Fin 1) h i d) (by
    rw [Shape.rowMajor_val_four, Shape.rowMajor_val_three]
    show ((0 * 16 + h.val) * 128 + i.val) * 64 + d.val = (h.val * 128 + i.val) * 64 + d.val
    omega)

/-- The score tile at (h, i, j). -/
theorem scoreTile_apply (kt : FVec Ideal S16x64x256 .f32) (qb : FVec Ideal S1x16x128x64 .f32) (h : Fin 16) (i : Fin 128) (j : Fin 256) :
    mulf (matmul dot_S16x128x64_S16x64x256_S16x128x256_2_1_1_2_0_0 none
          (truncf .bf16 (shapeCast S16x128x64 qb shapeCasts_S1x16x128x64_S16x128x64) bitsLt_bf16_f32)
          (truncf .bf16 kt bitsLt_bf16_f32) (constant S16x128x256 .f32 0x00000000#32))
        (broadcast S16x128x256 (Scalar.ofBits .f32 0x3E000000#32)) (ix3 h i j)
      = Attn.score (fun d => qb (ix4 (0 : Fin 1) h i d)) (fun d => kt (ix3 h d j)) := by
  rw [mulf_apply, qk_apply, broadcast_apply]
  unfold Attn.score
  refine congrArg₂ (· * ·) (Finset.sum_congr rfl fun d _ => ?_) rfl
  rw [truncf_apply, truncf_apply, dropUnitQ_apply]

/-- THE WEIGHTS' TILE at (h, i, j): the softmax across the heads of the scores of query row i and key column j. -/
theorem pay3_apply (kt : FVec Ideal S16x64x256 .f32) (qb : FVec Ideal S1x16x128x64 .f32) (h : Fin 16) (i : Fin 128) (j : Fin 256) :
    k0_pay3 (F := Ideal) kt qb (ix3 h i j)
      = Attn.softmax (fun h' => Attn.score (fun d => qb (ix4 (0 : Fin 1) h' i d)) (fun d => kt (ix3 h' d j))) h := by
  unfold k0_pay3
  refine (softmaxTile_apply _ h i j).trans ?_
  exact congrArg (fun s => Attn.softmax s h) (funext fun h' => scoreTile_apply kt qb h' i j)

/-- The weights' block, as stored: the tile with a leading unit axis. -/
theorem pay4_apply (kt : FVec Ideal S16x64x256 .f32) (qb : FVec Ideal S1x16x128x64 .f32) (h : Fin 16) (i : Fin 128) (j : Fin 256) :
    k0_pay4 (F := Ideal) kt qb (ix4 (0 : Fin 1) h i j) = k0_pay3 (F := Ideal) kt qb (ix3 h i j) := by
  unfold k0_pay4
  exact shapeCast_apply _ shapeCasts_S16x128x256_S1x16x128x256 (ix4 (0 : Fin 1) h i j) (ix3 h i j) (by
    rw [Shape.rowMajor_val_four, Shape.rowMajor_val_three]
    show (h.val * 128 + i.val) * 256 + j.val = ((0 * 16 + h.val) * 128 + i.val) * 256 + j.val
    omega)

/-- The tile's contribution to the output at (h, i, d): weights times values, summed over the tile's columns. -/
theorem pay5_apply (kt vt : FVec Ideal S16x64x256 .f32) (qb : FVec Ideal S1x16x128x64 .f32) (h : Fin 16) (i : Fin 128) (d : Fin 64) :
    k0_pay5 (F := Ideal) kt vt qb (ix3 h i d) = ∑ j : Fin 256, k0_pay3 (F := Ideal) kt qb (ix3 h i j) * vt (ix3 h d j) := by
  unfold k0_pay5
  refine (wv_apply _ _ h i d).trans ?_
  refine Finset.sum_congr rfl fun j _ => ?_
  rw [truncf_apply, truncf_apply]

/-- The zero block the first key tile of a run stores. -/
theorem pay1_apply (y : S1x16x128x64.Idx) : k0_pay1 (F := Ideal) y = 0 := by
  unfold k0_pay1
  show Ideal.ofBits .f32 0x00000000#32 = 0
  exact Ideal.ofBits_zero_f32

/-- The accumulation at (0, h, i, d): what the block held plus the tile's contribution. -/
theorem pay2_apply (p : FVec Ideal S16x128x64 .f32) (o : FVec Ideal S1x16x128x64 .f32) (h : Fin 16) (i : Fin 128) (d : Fin 64) :
    k0_pay2 (F := Ideal) p o (ix4 (0 : Fin 1) h i d) = o (ix4 (0 : Fin 1) h i d) + p (ix3 h i d) := by
  unfold k0_pay2
  refine (shapeCast_apply _ shapeCasts_S16x128x64_S1x16x128x64 (ix4 (0 : Fin 1) h i d) (ix3 h i d) (by
    rw [Shape.rowMajor_val_four, Shape.rowMajor_val_three]
    show (h.val * 128 + i.val) * 64 + d.val = ((0 * 16 + h.val) * 128 + i.val) * 64 + d.val
    omega)).trans ?_
  rw [addf_apply, dropUnitQ_apply]

end Cert.KernelIdeal.Tile

end
-- ==== Proof.Pieces.lean ====
/-
  What each case of the body leaves in the two output blocks and the two resident buffers, as values.

  Every case loads the (16, 64, 256) key and value tiles out of the resident buffers at the point's column offset
  and the whole query block; the weights block is one whole store of the weights' payload; the output block is one
  whole store of "what the block held plus the tile's contribution", where the first key tile of a run first
  stores zeros and reads them back.  At the first point of a batch the resident buffers are what the body's own
  copies delivered: the batch's slab of the key and value arrays.
-/
import proofs.«165156_j19481971654760_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz4 : (![0, 0, 0, 0] : Fin 4 → Nat) = fun _ => 0 := funext fun a => by fin_cases a <;> rfl

/-- The key (or value) tile the body loads out of a resident buffer holding `xs`. -/
abbrev tileOf (i : grid0.Coords) (xs : Vec F S16x64x2048 .f32) : Vec F S16x64x256 .f32 :=
  View.ld xs (Rect.unit (s := S16x64x2048) (k0_off2 i) S16x64x256.size (k0_off2_inb i))

/-- The accumulating case, weights block. -/
theorem out_B_2 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : ¬cond0_0 i) (hc1 : ¬cond0_1 i) (x0 : Vec F S1x16x128x64 .f32) (xo1 : Vec F S1x16x128x64 .f32) (xs0 : Vec F S16x64x2048 .f32) (xs1 : Vec F S16x64x2048 .f32) (fh0 : HbBuf0 (F := F) c hbM0_0) (fh1 : HbBuf0 (F := F) c hbM0_1) :
    out0_B_2 c i arg3 harg3 arg6 harg6 arg7 harg7 arg8 harg8 arg9 harg9 hc0 hc1 x0 xo1 xs0 xs1 fh0 fh1 = k0_pay4 (tileOf i xs0) x0 := by
  unfold out0_B_2
  rw [View.read_writes_eq_canon _ _ _ (cover0_B_2 c i arg3 harg3 arg6 harg6 arg7 harg7 arg8 harg8 arg9 harg9 hc0 hc1 x0 xo1 xs0 xs1 fh0 fh1)]
  unfold kernelRun0_B
  dsimp only
  rw [View.canon_unit_zero hz4]
  simp only [View.readAt_eq_ld, harg3.read_unread, harg8.read_unread, View.ld_unit_zero (S := S1x16x128x64) hz4]

/-- The accumulating case, output block: what it held plus the tile's contribution. -/
theorem out_B_1 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : ¬cond0_0 i) (hc1 : ¬cond0_1 i) (x0 : Vec F S1x16x128x64 .f32) (xo1 : Vec F S1x16x128x64 .f32) (xs0 : Vec F S16x64x2048 .f32) (xs1 : Vec F S16x64x2048 .f32) (fh0 : HbBuf0 (F := F) c hbM0_0) (fh1 : HbBuf0 (F := F) c hbM0_1) :
    out0_B_1 c i arg3 harg3 arg6 harg6 arg7 harg7 arg8 harg8 arg9 harg9 hc0 hc1 x0 xo1 xs0 xs1 fh0 fh1 = k0_pay2 (k0_pay5 (tileOf i xs0) (tileOf i xs1) x0) xo1 := by
  unfold out0_B_1
  rw [View.read_writes_eq_canon _ _ _ (cover0_B_1 c i arg3 harg3 arg6 harg6 arg7 harg7 arg8 harg8 arg9 harg9 hc0 hc1 x0 xo1 xs0 xs1 fh0 fh1)]
  unfold kernelRun0_B
  dsimp only
  sl_unfold_run_names
  rw [View.canon_unit_zero hz4]
  simp only [View.readAt_eq_ld, harg3.read_unread, harg6.read_unread, harg8.read_unread, harg9.read_unread,
    View.ld_unit_zero (S := S1x16x128x64) hz4]

/-- The first key tile of a run (not the first of a batch), weights block. -/
theorem out_C_2 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : ¬cond0_0 i) (hc1 : cond0_1 i) (x0 : Vec F S1x16x128x64 .f32) (xs0 : Vec F S16x64x2048 .f32) (xs1 : Vec F S16x64x2048 .f32) (fh0 : HbBuf0 (F := F) c hbM0_0) (fh1 : HbBuf0 (F := F) c hbM0_1) :
    out0_C_2 c i arg3 harg3 arg6 harg6 arg7 harg7 arg8 harg8 arg9 harg9 hc0 hc1 x0 xs0 xs1 fh0 fh1 = k0_pay4 (tileOf i xs0) x0 := by
  unfold out0_C_2
  rw [View.read_writes_eq_canon _ _ _ (cover0_C_2 c i arg3 harg3 arg6 harg6 arg7 harg7 arg8 harg8 arg9 harg9 hc0 hc1 x0 xs0 xs1 fh0 fh1)]
  unfold kernelRun0_C
  dsimp only
  rw [View.canon_unit_zero hz4]
  simp only [View.readAt_eq_ld, harg3.read_unread, harg8.read_unread, View.ld_unit_zero (S := S1x16x128x64) hz4]

/-- The first key tile of a run, output block: zeros, read back, plus the tile's contribution. -/
theorem out_C_1 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : ¬cond0_0 i) (hc1 : cond0_1 i) (x0 : Vec F S1x16x128x64 .f32) (xs0 : Vec F S16x64x2048 .f32) (xs1 : Vec F S16x64x2048 .f32) (fh0 : HbBuf0 (F := F) c hbM0_0) (fh1 : HbBuf0 (F := F) c hbM0_1) :
    out0_C_1 c i arg3 harg3 arg6 harg6 arg7 harg7 arg8 harg8 arg9 harg9 hc0 hc1 x0 xs0 xs1 fh0 fh1 = k0_pay2 (k0_pay5 (tileOf i xs0) (tileOf i xs1) x0) (k0_pay1 (F := F)) := by
  unfold out0_C_1
  rw [View.read_writes_eq_canon _ _ _ (cover0_C_1 c i arg3 harg3 arg6 harg6 arg7 harg7 arg8 harg8 arg9 harg9 hc0 hc1 x0 xs0 xs1 fh0 fh1)]
  unfold kernelRun0_C
  dsimp only
  sl_unfold_run_names
  rw [View.canon_cons_unit_zero (S := S1x16x128x64) hz4, View.readCov_unit_zero (S := S1x16x128x64) _ hz4]
  simp only [View.readAt_eq_ld, harg3.read_unread, harg8.read_unread, harg9.read_unread,
    View.ld_unit_zero (S := S1x16x128x64) hz4]

/-- The slab the body's own copy delivers into a resident buffer: the squeezed slice, at the point's batch, of the
    (2, 16, 64, 2048) array `M` holding `fh`. -/
abbrev slabOf (c : Dev nD) (i : grid0.Coords) (hc0 : cond0_0 i) (M : Memref sig .tc .hbm S2x16x64x2048 .f32)
    (fh : HbBuf0 (F := F) c M) : Vec F S16x64x2048 .f32 :=
  View.read (Elt F) ((M.slice (Rect.unit (s := S2x16x64x2048) (k0_off1 i) S1x16x64x2048.size (k0_off1_inb i hc0)) (fun _ => rfl)).squeeze
    S16x64x2048 squeezes_S1x16x64x2048_S16x64x2048).view fh

/-- The first point of a batch, resident keys: the delivered slab. -/
theorem sout_A_0 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : cond0_0 i) (hc1 : cond0_1 i) (x0 : Vec F S1x16x128x64 .f32) (fh0 : HbBuf0 (F := F) c hbM0_0) (fh1 : HbBuf0 (F := F) c hbM0_1) :
    sout0_A_0 c i arg3 harg3 arg6 harg6 arg7 harg7 arg8 harg8 arg9 harg9 hc0 hc1 x0 fh0 fh1 = slabOf c i hc0 hbM0_0 fh0 := by
  unfold sout0_A_0
  rw [View.read_writes_eq_canon _ _ _ (scover0_A_0 c i arg3 harg3 arg6 harg6 arg7 harg7 arg8 harg8 arg9 harg9 hc0 hc1 x0 fh0 fh1)]
  unfold kernelRun0_A
  dsimp only
  sl_unfold_run_names
  unfold Rect.whole
  rw [View.canon_unit_zero (S := S16x64x2048) rfl]

/-- The first point of a batch, resident values: the delivered slab. -/
theorem sout_A_1 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : cond0_0 i) (hc1 : cond0_1 i) (x0 : Vec F S1x16x128x64 .f32) (fh0 : HbBuf0 (F := F) c hbM0_0) (fh1 : HbBuf0 (F := F) c hbM0_1) :
    sout0_A_1 c i arg3 harg3 arg6 harg6 arg7 harg7 arg8 harg8 arg9 harg9 hc0 hc1 x0 fh0 fh1 = slabOf c i hc0 hbM0_1 fh1 := by
  unfold sout0_A_1
  rw [View.read_writes_eq_canon _ _ _ (scover0_A_1 c i arg3 harg3 arg6 harg6 arg7 harg7 arg8 harg8 arg9 harg9 hc0 hc1 x0 fh0 fh1)]
  unfold kernelRun0_A
  dsimp only
  sl_unfold_run_names
  unfold Rect.whole
  rw [View.canon_unit_zero (S := S16x64x2048) rfl]

/-- The first point of a batch, weights block: over the delivered keys. -/
theorem out_A_2 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : cond0_0 i) (hc1 : cond0_1 i) (x0 : Vec F S1x16x128x64 .f32) (fh0 : HbBuf0 (F := F) c hbM0_0) (fh1 : HbBuf0 (F := F) c hbM0_1) :
    out0_A_2 c i arg3 harg3 arg6 harg6 arg7 harg7 arg8 harg8 arg9 harg9 hc0 hc1 x0 fh0 fh1 = k0_pay4 (tileOf i (slabOf c i hc0 hbM0_0 fh0)) x0 := by
  unfold out0_A_2
  rw [View.read_writes_eq_canon _ _ _ (cover0_A_2 c i arg3 harg3 arg6 harg6 arg7 harg7 arg8 harg8 arg9 harg9 hc0 hc1 x0 fh0 fh1)]
  unfold kernelRun0_A
  dsimp only
  sl_unfold_run_names
  rw [View.canon_unit_zero hz4, View.readAt_writes_junk_eq_canon]
  unfold Rect.whole
  simp only [View.canon_unit_zero (S := S16x64x2048) rfl, View.readAt_eq_ld, harg3.read_unread,
    View.ld_unit_zero (S := S1x16x128x64) hz4]
  rfl

/-- The first point of a batch, output block: zeros, read back, plus the tile's contribution over the delivered keys and values. -/
theorem out_A_1 (c : Dev nD) (i : grid0.Coords) (arg3 : Memref sig .tc .vmem S1x16x128x64 .f32) (harg3 : arg3.IsWhole) (arg6 : Memref sig .tc .vmem S1x16x128x64 .f32) (harg6 : arg6.IsWhole) (arg7 : Memref sig .tc .vmem S1x16x128x256 .f32) (harg7 : arg7.IsWhole) (arg8 : Memref sig .tc .vmem S16x64x2048 .f32) (harg8 : arg8.IsWhole) (arg9 : Memref sig .tc .vmem S16x64x2048 .f32) (harg9 : arg9.IsWhole) (hc0 : cond0_0 i) (hc1 : cond0_1 i) (x0 : Vec F S1x16x128x64 .f32) (fh0 : HbBuf0 (F := F) c hbM0_0) (fh1 : HbBuf0 (F := F) c hbM0_1) :
    out0_A_1 c i arg3 harg3 arg6 harg6 arg7 harg7 arg8 harg8 arg9 harg9 hc0 hc1 x0 fh0 fh1
      = k0_pay2 (k0_pay5 (tileOf i (slabOf c i hc0 hbM0_0 fh0)) (tileOf i (slabOf c i hc0 hbM0_1 fh1)) x0) (k0_pay1 (F := F)) := by
  unfold out0_A_1
  rw [View.read_writes_eq_canon _ _ _ (cover0_A_1 c i arg3 harg3 arg6 harg6 arg7 harg7 arg8 harg8 arg9 harg9 hc0 hc1 x0 fh0 fh1)]
  unfold kernelRun0_A
  dsimp only
  sl_unfold_run_names
  rw [View.canon_cons_unit_zero (S := S1x16x128x64) hz4, View.readCov_unit_zero (S := S1x16x128x64) _ hz4,
    View.readAt_writes_junk_eq_canon, View.readAt_writes_junk_eq_canon]
  unfold Rect.whole
  simp only [View.canon_unit_zero (S := S16x64x2048) rfl, View.readAt_eq_ld, harg3.read_unread,
    View.ld_unit_zero (S := S1x16x128x64) hz4]
  rfl

end Cert.KernelIdeal.Pieces

end
-- ==== Proof.GridFacts.lean ====
/-
  Where each grid point sits.  The grid is (2, 16, 8): batch, query tile of 128 rows, key tile of 256 columns, the
  key tile running fastest.  Point `t` is batch `t / 128`, query tile `t / 8 % 16`, key tile `t % 8`; the query
  and output blocks are at (batch, 0, query tile, 0), the weights block at (batch, 0, query tile, key tile); the
  body reads the resident keys and values at column offset `256 · key tile` and copies batch `t / 128` of them in.
-/
import proofs.«165156_j19481971654760_2_alg».proof.Proof.Gen.KernelIdeal.Launch

noncomputable section

namespace Cert.KernelIdeal.Grid

open Cert.KernelIdeal Cert.KernelIdeal.Gen Idealize.ShloMosaic

/-- The three coordinates of point `t`. -/
theorem coords_val : ∀ t : Fin cfg0.N, (grid0.coords t 0).val = t.val / 128 ∧ (grid0.coords t 1).val = t.val / 8 % 16
    ∧ (grid0.coords t 2).val = t.val % 8 :=
  (by decide +kernel : ∀ t : Fin grid0.N, (grid0.coords t 0).val = t.val / 128 ∧ (grid0.coords t 1).val = t.val / 8 % 16
    ∧ (grid0.coords t 2).val = t.val % 8)

/-- The column offset of the body's loads of the resident keys and values. -/
theorem off2_val : ∀ t : Fin cfg0.N, k0_off2 (grid0.coords t) 0 = 0 ∧ k0_off2 (grid0.coords t) 1 = 0
    ∧ k0_off2 (grid0.coords t) 2 = t.val % 8 * 256 :=
  (by decide +kernel : ∀ t : Fin grid0.N, k0_off2 (grid0.coords t) 0 = 0 ∧ k0_off2 (grid0.coords t) 1 = 0
    ∧ k0_off2 (grid0.coords t) 2 = t.val % 8 * 256)

/-- The batch the body's own copies fetch. -/
theorem off1_val : ∀ t : Fin cfg0.N, k0_off1 (grid0.coords t) 0 = t.val / 128 ∧ k0_off1 (grid0.coords t) 1 = 0
    ∧ k0_off1 (grid0.coords t) 2 = 0 ∧ k0_off1 (grid0.coords t) 3 = 0 :=
  (by decide +kernel : ∀ t : Fin grid0.N, k0_off1 (grid0.coords t) 0 = t.val / 128 ∧ k0_off1 (grid0.coords t) 1 = 0
    ∧ k0_off1 (grid0.coords t) 2 = 0 ∧ k0_off1 (grid0.coords t) 3 = 0)

/-- The query window's block index. -/
theorem win0_index : ∀ t : Fin cfg0.N, win0_0.index t 0 = t.val / 128 ∧ win0_0.index t 1 = 0
    ∧ win0_0.index t 2 = t.val / 8 % 16 ∧ win0_0.index t 3 = 0 :=
  (by decide +kernel : ∀ t : Fin grid0.N, win0_0.index t 0 = t.val / 128 ∧ win0_0.index t 1 = 0
    ∧ win0_0.index t 2 = t.val / 8 % 16 ∧ win0_0.index t 3 = 0)

/-- The output window's block index. -/
theorem win1_index : ∀ t : Fin cfg0.N, win0_1.index t 0 = t.val / 128 ∧ win0_1.index t 1 = 0
    ∧ win0_1.index t 2 = t.val / 8 % 16 ∧ win0_1.index t 3 = 0 :=
  (by decide +kernel : ∀ t : Fin grid0.N, win0_1.index t 0 = t.val / 128 ∧ win0_1.index t 1 = 0
    ∧ win0_1.index t 2 = t.val / 8 % 16 ∧ win0_1.index t 3 = 0)

/-- The weights window's block index. -/
theorem win2_index : ∀ t : Fin cfg0.N, win0_2.index t 0 = t.val / 128 ∧ win0_2.index t 1 = 0
    ∧ win0_2.index t 2 = t.val / 8 % 16 ∧ win0_2.index t 3 = t.val % 8 :=
  (by decide +kernel : ∀ t : Fin grid0.N, win0_2.index t 0 = t.val / 128 ∧ win0_2.index t 1 = 0
    ∧ win0_2.index t 2 = t.val / 8 % 16 ∧ win0_2.index t 3 = t.val % 8)

end Cert.KernelIdeal.Grid

end
-- ==== Proof.TileValue.lean ====
/-
  The body's tiles as pieces of the whole arrays.

  At grid point `t` (batch `t / 128`, query tile `t / 8 % 16`, key tile `t % 8`), with the resident buffers holding
  the batch's slabs of the key array `K` and the value array `VT` (both laid out batch, head, feature, column), the
  weights the body computes are the whole weights array's block at (batch, query tile, key tile), and its
  contribution to the output block is that key tile's term of the output's sum over the columns.
-/
import proofs.«165156_j19481971654760_2_alg».proof.Proof.Payload
import proofs.«165156_j19481971654760_2_alg».proof.Proof.Pieces
import proofs.«165156_j19481971654760_2_alg».proof.Proof.GridFacts

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The batch of point `n`. -/
def bat (n : ℕ) : Fin 2 := ⟨n / 128 % 2, Nat.mod_lt _ (by decide)⟩
/-- Row `i` of point `n`'s query tile, as a row of the whole array. -/
def qrow (n : ℕ) (i : Fin 128) : Fin 2048 :=
  ⟨n / 8 % 16 * 128 + i.val, by have := i.isLt; have := Nat.mod_lt (n / 8) (show 0 < 16 by decide); omega⟩
/-- The key tile of point `n`. -/
def ktile (n : ℕ) : Fin 8 := ⟨n % 8, Nat.mod_lt _ (by decide)⟩

/-- Batch `b`'s slab of a (2, 16, 64, 2048) array: what a resident buffer holds. -/
def slab (A : Attn.KIdx → EReal) (b : Fin 2) : FVec Ideal S16x64x2048 .f32 :=
  fun x => A (ix4 b (x 0) (x 1) (x 2))

/-- The tile the body loads out of a resident buffer holding a slab reads the array at the point's batch and the key
    tile's columns. -/
theorem tile_slab_apply (A : Attn.KIdx → EReal) (t : Fin cfg0.N) (b : Fin 2) (h : Fin 16) (d : Fin 64) (j : Fin 256) :
    Pieces.tileOf (F := Ideal) (grid0.coords t) (slab A b) (ix3 h d j) = A (ix4 b h d (Attn.col (ktile t.val) j)) := by
  obtain ⟨e0, e1, e2⟩ := Grid.off2_val t
  show A (ix4 b _ _ _) = _
  refine congrArg A (funext fun a => Fin.ext ?_)
  match a with
  | ⟨0, _⟩ => rfl
  | ⟨1, _⟩ => show k0_off2 (grid0.coords t) 0 + 1 * h.val = h.val; omega
  | ⟨2, _⟩ => show k0_off2 (grid0.coords t) 1 + 1 * d.val = d.val; omega
  | ⟨3, _⟩ => show k0_off2 (grid0.coords t) 2 + 1 * j.val = t.val % 8 * 256 + j.val; omega

/-- The query block at point `t` reads the query array at the point's batch and the query tile's rows. -/
theorem qblock_apply (c : Dev nD) (t : Fin cfg0.N) (h : Fin 16) (i : Fin 128) (d : Fin 64) :
    iblk m c 0 t (ix4 (0 : Fin 1) h i d) = V m c main_arg0 (ix4 (bat t.val) h (qrow t.val i) d) := by
  obtain ⟨e0, e1, e2, e3⟩ := Grid.win0_index t
  have hN : t.val < 256 := lt_of_lt_of_eq t.isLt (show cfg0.N = 256 from N_0)
  show V m c main_arg0 (((cfg0.win 0).blk t).view.emb (ix4 (0 : Fin 1) h i d)) = V m c main_arg0 _
  refine congrArg (V m c main_arg0) (funext fun a => Fin.ext ?_)
  match a with
  | ⟨0, _⟩ => show win0_0.index t 0 * 1 + 1 * 0 = t.val / 128 % 2; omega
  | ⟨1, _⟩ => show win0_0.index t 1 * 16 + 1 * h.val = h.val; omega
  | ⟨2, _⟩ => show win0_0.index t 2 * 128 + 1 * i.val = t.val / 8 % 16 * 128 + i.val; omega
  | ⟨3, _⟩ => show win0_0.index t 3 * 64 + 1 * d.val = d.val; omega

/-- What the body's copy delivers at the first point of a batch is the batch's slab of the array it copies from. -/
theorem slabK_eq (c : Dev nD) (t : Fin cfg0.N) (hc0 : cond0_0 (grid0.coords t)) (fh : HbBuf0 (F := Ideal) c hbM0_0) :
    Pieces.slabOf (F := Ideal) c (grid0.coords t) hc0 hbM0_0 fh = slab (fh : Attn.KIdx → EReal) (bat t.val) := by
  funext x
  obtain ⟨e0, e1, e2, e3⟩ := Grid.off1_val t
  have hN : t.val < 256 := lt_of_lt_of_eq t.isLt (show cfg0.N = 256 from N_0)
  have hc : S1x16x64x2048.ShapeCasts S16x64x2048 := by decide
  refine (congrFun (Memref.read_squeeze_slice hbM0_0 _ (fun _ => rfl) squeezes_S1x16x64x2048_S16x64x2048 hc fh) x).trans ?_
  rw [shapeCast_apply _ hc x (ix4 (0 : Fin 1) (x 0) (x 1) (x 2)) (by
    rw [Shape.rowMajor_val_four, Shape.rowMajor_val_three]
    show ((0 * 16 + (x 0).val) * 64 + (x 1).val) * 2048 + (x 2).val = ((x 0).val * 64 + (x 1).val) * 2048 + (x 2).val
    omega)]
  show fh _ = fh (ix4 (bat t.val) (x 0) (x 1) (x 2))
  refine congrArg fh (funext fun a => Fin.ext ?_)
  match a with
  | ⟨0, _⟩ => show k0_off1 (grid0.coords t) 0 + 1 * 0 = t.val / 128 % 2; omega
  | ⟨1, _⟩ => show k0_off1 (grid0.coords t) 1 + 1 * (x 0).val = (x 0).val; omega
  | ⟨2, _⟩ => show k0_off1 (grid0.coords t) 2 + 1 * (x 1).val = (x 1).val; omega
  | ⟨3, _⟩ => show k0_off1 (grid0.coords t) 3 + 1 * (x 2).val = (x 2).val; omega

theorem slabV_eq (c : Dev nD) (t : Fin cfg0.N) (hc0 : cond0_0 (grid0.coords t)) (fh : HbBuf0 (F := Ideal) c hbM0_1) :
    Pieces.slabOf (F := Ideal) c (grid0.coords t) hc0 hbM0_1 fh = slab (fh : Attn.KIdx → EReal) (bat t.val) := by
  funext x
  obtain ⟨e0, e1, e2, e3⟩ := Grid.off1_val t
  have hN : t.val < 256 := lt_of_lt_of_eq t.isLt (show cfg0.N = 256 from N_0)
  have hc : S1x16x64x2048.ShapeCasts S16x64x2048 := by decide
  refine (congrFun (Memref.read_squeeze_slice hbM0_1 _ (fun _ => rfl) squeezes_S1x16x64x2048_S16x64x2048 hc fh) x).trans ?_
  rw [shapeCast_apply _ hc x (ix4 (0 : Fin 1) (x 0) (x 1) (x 2)) (by
    rw [Shape.rowMajor_val_four, Shape.rowMajor_val_three]
    show ((0 * 16 + (x 0).val) * 64 + (x 1).val) * 2048 + (x 2).val = ((x 0).val * 64 + (x 1).val) * 2048 + (x 2).val
    omega)]
  show fh _ = fh (ix4 (bat t.val) (x 0) (x 1) (x 2))
  refine congrArg fh (funext fun a => Fin.ext ?_)
  match a with
  | ⟨0, _⟩ => show k0_off1 (grid0.coords t) 0 + 1 * 0 = t.val / 128 % 2; omega
  | ⟨1, _⟩ => show k0_off1 (grid0.coords t) 1 + 1 * (x 0).val = (x 0).val; omega
  | ⟨2, _⟩ => show k0_off1 (grid0.coords t) 2 + 1 * (x 1).val = (x 1).val; omega
  | ⟨3, _⟩ => show k0_off1 (grid0.coords t) 3 + 1 * (x 2).val = (x 2).val; omega

/-- THE WEIGHTS' TILE at point `t` is the whole weights array's block at (batch, query tile, key tile). -/
theorem wtile_apply (c : Dev nD) (t : Fin cfg0.N) (A : Attn.KIdx → EReal) (h : Fin 16) (i : Fin 128) (j : Fin 256) :
    k0_pay3 (F := Ideal) (Pieces.tileOf (F := Ideal) (grid0.coords t) (slab A (bat t.val))) (iblk m c 0 t) (ix3 h i j)
      = Attn.weights (V m c main_arg0 : Attn.QIdx → EReal) A (ix4 (bat t.val) h (qrow t.val i) (Attn.col (ktile t.val) j)) := by
  refine (Tile.pay3_apply _ _ h i j).trans ?_
  show _ = Attn.softmax (Attn.scores _ A (bat t.val) (qrow t.val i) (Attn.col (ktile t.val) j)) h
  refine congrArg (fun s => Attn.softmax s h) (funext fun h' => ?_)
  unfold Attn.scores
  exact congrArg₂ Attn.score (funext fun d => qblock_apply m c t h' i d) (funext fun d => tile_slab_apply A t _ h' d j)

/-- THE TILE'S CONTRIBUTION to the output at point `t` is its key tile's term of the output's sum over the columns. -/
theorem otile_apply (c : Dev nD) (t : Fin cfg0.N) (A B : Attn.KIdx → EReal) (h : Fin 16) (i : Fin 128) (d : Fin 64) :
    k0_pay5 (F := Ideal) (Pieces.tileOf (F := Ideal) (grid0.coords t) (slab A (bat t.val)))
        (Pieces.tileOf (F := Ideal) (grid0.coords t) (slab B (bat t.val))) (iblk m c 0 t) (ix3 h i d)
      = Attn.tileTerm (V m c main_arg0 : Attn.QIdx → EReal) A B (bat t.val) h (qrow t.val i) d (ktile t.val) := by
  refine (Tile.pay5_apply _ _ _ h i d).trans ?_
  unfold Attn.tileTerm
  exact Finset.sum_congr rfl fun j _ => congrArg₂ (· * ·) (wtile_apply m c t A h i j) (tile_slab_apply B t _ h d j)

end Cert.KernelIdeal.TileValue

end
-- ==== Proof.Invariant.lean ====
/-
  What the buffers hold after each grid point.

  After point `n` (batch b = n / 128, query tile n / 8 % 16, key tile k = n % 8):
    · the two resident buffers hold batch b's slabs of the key and value arrays — delivered at the batch's first
      point and untouched since;
    · the weights block holds the whole weights array's block at (b, query tile, k);
    · the output block holds the sum of the first k + 1 key tiles' terms of the output — reset at k = 0, one term
      added per point.
  By induction on the point, one step per case of the body.
-/
import proofs.«165156_j19481971654760_2_alg».proof.Proof.TileValue

noncomputable section

open scoped BigOperators

namespace Cert.KernelIdeal.Inv

open Cert.KernelIdeal Cert.KernelIdeal.Gen Cert.KernelIdeal.TileValue Idealize.ShloMosaic Idealize.ShloMosaic.TcCoe Idealize.SL.Sem
open Idealize.ShloMosaic.ValueIdx

variable (m : (ℓ : Loc nD τ sig) → Buf (Elt Ideal) ℓ)

/-- The four facts after point `n`. -/
structure Holds (c : Dev nD) (n : ℕ) (hn : n < cfg0.N) : Prop where
  keys : (outsAt0 m c n hn).2.2.1 = slab (V m c main_v0 : Attn.KIdx → EReal) (bat n)
  vals : (outsAt0 m c n hn).2.2.2 = slab (V m c main_v1 : Attn.KIdx → EReal) (bat n)
  acc : ∀ (h : Fin 16) (i : Fin 128) (d : Fin 64), (outsAt0 m c n hn).1 (ix4 (0 : Fin 1) h i d)
      = Attn.partialOut (V m c main_arg0 : Attn.QIdx → EReal) (V m c main_v0 : Attn.KIdx → EReal) (V m c main_v1 : Attn.KIdx → EReal) (bat n) h (qrow n i) d (n % 8)
  wts : ∀ (h : Fin 16) (i : Fin 128) (j : Fin 256), (outsAt0 m c n hn).2.1 (ix4 (0 : Fin 1) h i j)
      = Attn.weights (V m c main_arg0 : Attn.QIdx → EReal) (V m c main_v0 : Attn.KIdx → EReal) (ix4 (bat n) h (qrow n i) (Attn.col (ktile n) j))

/-- A point's weights block, from the resident keys being the batch's slab. -/
theorem wts_of (c : Dev nD) (t : Fin cfg0.N) (h : Fin 16) (i : Fin 128) (j : Fin 256) :
    k0_pay4 (F := Ideal) (Pieces.tileOf (F := Ideal) (grid0.coords t) (slab (V m c main_v0 : Attn.KIdx → EReal) (bat t.val))) (iblk m c 0 t) (ix4 (0 : Fin 1) h i j)
      = Attn.weights (V m c main_arg0 : Attn.QIdx → EReal) (V m c main_v0 : Attn.KIdx → EReal) (ix4 (bat t.val) h (qrow t.val i) (Attn.col (ktile t.val) j)) :=
  (Tile.pay4_apply _ _ h i j).trans (wtile_apply m c t _ h i j)

/-- A point's output block when it resets first: the key tile's term alone. -/
theorem acc_reset (c : Dev nD) (t : Fin cfg0.N) (h1 : t.val % 8 = 0) (h : Fin 16) (i : Fin 128) (d : Fin 64) :
    k0_pay2 (F := Ideal) (k0_pay5 (F := Ideal) (Pieces.tileOf (F := Ideal) (grid0.coords t) (slab (V m c main_v0 : Attn.KIdx → EReal) (bat t.val)))
        (Pieces.tileOf (F := Ideal) (grid0.coords t) (slab (V m c main_v1 : Attn.KIdx → EReal) (bat t.val))) (iblk m c 0 t)) (k0_pay1 (F := Ideal)) (ix4 (0 : Fin 1) h i d)
      = Attn.partialOut (V m c main_arg0 : Attn.QIdx → EReal) (V m c main_v0 : Attn.KIdx → EReal) (V m c main_v1 : Attn.KIdx → EReal) (bat t.val) h (qrow t.val i) d (t.val % 8) := by
  refine (Tile.pay2_apply _ _ h i d).trans ?_
  rw [Tile.pay1_apply, zero_add, otile_apply m c t, h1, Attn.partialOut_zero]
  exact congrArg _ (Fin.ext h1)

/-- The first point of a batch. -/
theorem caseA (c : Dev nD) (t : Fin cfg0.N) (h0 : t.val % 128 = 0) (h1 : t.val % 8 = 0) : Holds m c t.val t.isLt := by
  have e := outsAt0_A m c t h0 h1
  have ek : sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1) = slab (V m c main_v0 : Attn.KIdx → EReal) (bat t.val) :=
    (Pieces.sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1)).trans (slabK_eq c t _ _)
  have ev : sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1) = slab (V m c main_v1 : Attn.KIdx → EReal) (bat t.val) :=
    (Pieces.sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1)).trans (slabV_eq c t _ _)
  refine ⟨?_, ?_, fun h i d => ?_, fun h i j => ?_⟩
  · rw [e]; dsimp only; exact ek
  · rw [e]; dsimp only; exact ev
  · rw [e]
    dsimp only
    rw [Pieces.out_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1), slabK_eq c t, slabV_eq c t]
    exact acc_reset m c t h1 h i d
  · rw [e]
    dsimp only
    rw [Pieces.out_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h1) (iblk m c 0 t) (V m c main_v0) (V m c main_v1), slabK_eq c t]
    exact wts_of m c t h i j

/-- A later first key tile: the resident buffers are kept, the output block reset. -/
theorem caseC (c : Dev nD) (t : Fin cfg0.N) (h0 : ¬t.val % 128 = 0) (h1 : t.val % 8 = 0)
    (prev : Holds m c (t.val - 1) (Nat.lt_of_le_of_lt (Nat.sub_le _ _) t.isLt)) : Holds m c t.val t.isLt := by
  have e := outsAt0_C m c t h0 h1
  have hb : bat (t.val - 1) = bat t.val := Fin.ext (by show (t.val - 1) / 128 % 2 = t.val / 128 % 2; omega)
  have pk := prev.keys
  have pv := prev.vals
  rw [hb] at pk pv
  refine ⟨?_, ?_, fun h i d => ?_, fun h i j => ?_⟩
  · rw [e]; dsimp only [sout0_C_0, sout0_B_0]; exact pk
  · rw [e]; dsimp only [sout0_C_1, sout0_B_1]; exact pv
  · rw [e]
    dsimp only
    rw [Pieces.out_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0) (V m c main_v1), pk, pv]
    exact acc_reset m c t h1 h i d
  · rw [e]
    dsimp only
    rw [Pieces.out_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0) (V m c main_v1), pk]
    exact wts_of m c t h i j

/-- A later key tile of a run: everything kept, one term added to the output block. -/
theorem caseB (c : Dev nD) (t : Fin cfg0.N) (h0 : ¬t.val % 128 = 0) (h1 : ¬t.val % 8 = 0)
    (prev : Holds m c (t.val - 1) (Nat.lt_of_le_of_lt (Nat.sub_le _ _) t.isLt)) : Holds m c t.val t.isLt := by
  have e := outsAt0_B m c t h0 h1
  have hb : bat (t.val - 1) = bat t.val := Fin.ext (by show (t.val - 1) / 128 % 2 = t.val / 128 % 2; omega)
  have hq : ∀ i : Fin 128, qrow (t.val - 1) i = qrow t.val i := fun i =>
    Fin.ext (by show (t.val - 1) / 8 % 16 * 128 + i.val = t.val / 8 % 16 * 128 + i.val; omega)
  have pk := prev.keys
  have pv := prev.vals
  rw [hb] at pk pv
  refine ⟨?_, ?_, fun h i d => ?_, fun h i j => ?_⟩
  · rw [e]; dsimp only [sout0_C_0, sout0_B_0]; exact pk
  · rw [e]; dsimp only [sout0_C_1, sout0_B_1]; exact pv
  · rw [e]
    dsimp only
    rw [Pieces.out_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0) (V m c main_v1), pk, pv]
    refine (Tile.pay2_apply _ _ h i d).trans ?_
    rw [prev.acc h i d, otile_apply m c t, hb, hq]
    have hk : t.val % 8 = (t.val - 1) % 8 + 1 := by omega
    have hlt : (t.val - 1) % 8 + 1 < 8 := by omega
    rw [hk, Attn.partialOut_succ _ _ _ _ _ _ _ _ hlt]
    exact congrArg _ (congrArg _ (Fin.ext hk))
  · rw [e]
    dsimp only
    rw [Pieces.out_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v0) (V m c main_v1), pk]
    exact wts_of m c t h i j

/-- The four facts hold after every point. -/
theorem holds (c : Dev nD) : ∀ (n : ℕ) (hn : n < cfg0.N), Holds m c n hn
  | 0, hn => caseA m c ⟨0, hn⟩ rfl rfl
  | n + 1, hn => by
    have hN : n + 1 < 256 := lt_of_lt_of_eq hn (show cfg0.N = 256 from N_0)
    by_cases h0 : (n + 1) % 128 = 0
    · exact caseA m c ⟨n + 1, hn⟩ h0 (show (n + 1) % 8 = 0 by omega)
    · by_cases h1 : (n + 1) % 8 = 0
      · exact caseC m c ⟨n + 1, hn⟩ h0 h1 (holds c n _)
      · exact caseB m c ⟨n + 1, hn⟩ h0 h1 (holds c n _)

end Cert.KernelIdeal.Inv

end
-- ==== Proof.HostSide.lean ====
/-
  What the region finds in the two arrays the host prepares: the key array reshaped (NOT transposed) to
  (batch, head, feature, column), and the value array with its last two axes swapped, so that entry
  (b, h, d, j) of the second is entry (b, h, j, d) of the value array.
-/
import proofs.«165156_j19481971654760_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The reshaped key array, as the region finds it. -/
theorem V_keys (c : Dev nD) : (V m c main_v0 : S2x16x64x2048.Idx → Elt F .f32)
    = shapeCast S2x16x64x2048 (m ((c : Thread nD τ).loc main_arg1)) shapeCasts_S2x16x2048x64_S2x16x64x2048 := by
  dsimp only [Gen.V, Gen.hostOps0]; after_results; rfl

/-- The transposed value array, as the region finds it. -/
theorem V_values (c : Dev nD) : (V m c main_v1 : S2x16x64x2048.Idx → Elt F .f32)
    = transpose S2x16x64x2048 [0, 1, 3, 2] (m ((c : Thread nD τ).loc main_arg2)) transposes_S2x16x2048x64_S2x16x64x2048_0_1_3_2 := by
  dsimp only [Gen.V, Gen.hostOps0]; after_results

/-- The swap of the last two axes, at an index. -/
theorem swap_apply {α : Type} (x : S2x16x2048x64.Idx → α) (b : Fin 2) (h : Fin 16) (d : Fin 64) (j : Fin 2048) :
    transpose S2x16x64x2048 [0, 1, 3, 2] x transposes_S2x16x2048x64_S2x16x64x2048_0_1_3_2 (ix4 b h d j) = x (ix4 b h j d) :=
  transpose_apply [0, 1, 3, 2] x transposes_S2x16x2048x64_S2x16x64x2048_0_1_3_2 (ix4 b h d j) (ix4 b h j d) (fun a => by
    match a with
    | ⟨0, _⟩ => rfl
    | ⟨1, _⟩ => rfl
    | ⟨2, _⟩ => rfl
    | ⟨3, _⟩ => rfl)

end Cert.KernelIdeal.HostSide

end
-- ==== Proof.KernelValue.lean ====
/-
  From blocks to arrays.  Every grid point writes its weights block back, and the 256 blocks tile the weights array;
  the output block is written back after the last key tile of each run of eight points, when it holds the whole sum,
  and those 32 blocks tile the output array.  So after the run the two result arrays are the specification's weights
  and output of the query array, the reshaped key array and the transposed value array.
-/
import proofs.«165156_j19481971654760_2_alg».proof.Proof.Invariant
import proofs.«165156_j19481971654760_2_alg».proof.Proof.HostSide
import proofs.«165156_j19481971654760_2_alg».proof.Proof.Gen.KernelIdeal.Value

noncomputable section

open scoped BigOperators

namespace Cert.KernelIdeal.KValue

open Cert.KernelIdeal Cert.KernelIdeal.Gen Cert.KernelIdeal.TileValue Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The weights array -/

/-- What point `t` writes back to the weights array is its block of the specification's weights. -/
theorem flushedW_eq (c : Dev nD) (t : Fin cfg0.N) :
    (dats m 0 c).flushed 2 t = ((cfg0.win 2).blk t).view.read (Elt Ideal) (Attn.weights (V m c main_arg0 : Attn.QIdx → EReal) (V m c main_v0 : Attn.KIdx → EReal)) := by
  rw [Value.flushed2]
  obtain ⟨e0, e1, e2, e3⟩ := Grid.win2_index t
  have hN : t.val < 256 := lt_of_lt_of_eq t.isLt (show cfg0.N = 256 from N_0)
  funext (y : S1x16x128x256.Idx)
  obtain ⟨z, h, i, j, rfl⟩ : ∃ (z : Fin 1) (h : Fin 16) (i : Fin 128) (j : Fin 256), y = ix4 z h i j := ⟨y 0, y 1, y 2, y 3, eq_ix4 y⟩
  obtain rfl : z = 0 := Subsingleton.elim _ _
  show (outsAt0 m c t.val t.isLt).2.1 (ix4 (0 : Fin 1) h i j) = Attn.weights (V m c main_arg0 : Attn.QIdx → EReal) (V m c main_v0 : Attn.KIdx → EReal) (((cfg0.win 2).blk t).view.emb (ix4 (0 : Fin 1) h i j))
  rw [(Inv.holds m c t.val t.isLt).wts h i j]
  refine congrArg (Attn.weights (V m c main_arg0 : Attn.QIdx → EReal) (V m c main_v0 : Attn.KIdx → EReal)) (funext fun a => Fin.ext ?_)
  match a with
  | ⟨0, _⟩ => show t.val / 128 % 2 = win0_2.index t 0 * 1 + 1 * 0; omega
  | ⟨1, _⟩ => show h.val = win0_2.index t 1 * 16 + 1 * h.val; omega
  | ⟨2, _⟩ => show t.val / 8 % 16 * 128 + i.val = win0_2.index t 2 * 128 + 1 * i.val; omega
  | ⟨3, _⟩ => show t.val % 8 * 256 + j.val = win0_2.index t 3 * 256 + 1 * j.val; omega

/-- An index of the weights array is in point `t`'s block iff each coordinate is in the block's range on its axis. -/
theorem mem_blkW (t : Fin cfg0.N) (x : S2x16x2048x2048.Idx) :
    x ∈ ((cfg0.win 2).blk t).view.set ↔ ∀ a : Fin 4, win0_2.index t a * S1x16x128x256.size a ≤ (x a).val ∧ (x a).val < win0_2.index t a * S1x16x128x256.size a + S1x16x128x256.size a := by
  show x ∈ ((View.whole main_v2_1).slice (win0_2.rect t)).set ↔ _
  rw [View.set_slice_whole, Rect.mem_set_unit]
  exact Iff.rfl

/-- Every index of the weights array is in some point's block: the point of its batch, query tile and key tile. -/
theorem coverW (x : S2x16x2048x2048.Idx) : ∃ t : Fin cfg0.N, (cfg0.win 2).flush t = true ∧ x ∈ ((cfg0.win 2).blk t).view.set := by
  have h0 : (x 0).val < 2 := (x 0).isLt
  have h1 : (x 1).val < 16 := (x 1).isLt
  have h2 : (x 2).val < 2048 := (x 2).isLt
  have h3 : (x 3).val < 2048 := (x 3).isLt
  have hN : cfg0.N = 256 := N_0
  let t : Fin cfg0.N := ⟨(x 0).val * 128 + (x 2).val / 128 * 8 + (x 3).val / 256, by rw [hN]; omega⟩
  have ht : t.val = (x 0).val * 128 + (x 2).val / 128 * 8 + (x 3).val / 256 := rfl
  obtain ⟨e0, e1, e2, e3⟩ := Grid.win2_index t
  refine ⟨t, flush0_2 t, ?_⟩
  rw [mem_blkW]
  intro a
  match a with
  | ⟨0, _⟩ => show win0_2.index t 0 * 1 ≤ (x 0).val ∧ (x 0).val < win0_2.index t 0 * 1 + 1; omega
  | ⟨1, _⟩ => show win0_2.index t 1 * 16 ≤ (x 1).val ∧ (x 1).val < win0_2.index t 1 * 16 + 16; omega
  | ⟨2, _⟩ => show win0_2.index t 2 * 128 ≤ (x 2).val ∧ (x 2).val < win0_2.index t 2 * 128 + 128; omega
  | ⟨3, _⟩ => show win0_2.index t 3 * 256 ≤ (x 3).val ∧ (x 3).val < win0_2.index t 3 * 256 + 256; omega

/-- THE WEIGHTS ARRAY after the run. -/
theorem finalW (c : Dev nD) : (dats m 0 c).arrAt 2 cfg0.N = Attn.weights (V m c main_arg0 : Attn.QIdx → EReal) (V m c main_v0 : Attn.KIdx → EReal) :=
  (dats m 0 c).arrAt_eq_of_cover 2 _ (fun t _ => flushedW_eq m c t) coverW

/-! ## The output array -/

/-- What a point that writes the output block back writes is its block of the specification's output: it is the
    last key tile of its run, and the block holds all eight tiles' terms. -/
theorem flushedO_eq (c : Dev nD) (t : Fin cfg0.N) (hf : (cfg0.win 1).flush t = true) :
    (dats m 0 c).flushed 1 t = ((cfg0.win 1).blk t).view.read (Elt Ideal) (Attn.output (V m c main_arg0 : Attn.QIdx → EReal) (V m c main_v0 : Attn.KIdx → EReal) (V m c main_v1 : Attn.KIdx → EReal)) := by
  have h7 : t.val % 8 = 7 := (flush0_1 t).mp hf
  rw [Value.flushed1]
  obtain ⟨e0, e1, e2, e3⟩ := Grid.win1_index t
  have hN : t.val < 256 := lt_of_lt_of_eq t.isLt (show cfg0.N = 256 from N_0)
  funext (y : S1x16x128x64.Idx)
  obtain ⟨z, h, i, d, rfl⟩ : ∃ (z : Fin 1) (h : Fin 16) (i : Fin 128) (d : Fin 64), y = ix4 z h i d := ⟨y 0, y 1, y 2, y 3, eq_ix4 y⟩
  obtain rfl : z = 0 := Subsingleton.elim _ _
  show (outsAt0 m c t.val t.isLt).1 (ix4 (0 : Fin 1) h i d) = Attn.output (V m c main_arg0 : Attn.QIdx → EReal) (V m c main_v0 : Attn.KIdx → EReal) (V m c main_v1 : Attn.KIdx → EReal) (((cfg0.win 1).blk t).view.emb (ix4 (0 : Fin 1) h i d))
  rw [(Inv.holds m c t.val t.isLt).acc h i d, h7, Attn.partialOut_last]
  refine congrArg (Attn.output (V m c main_arg0 : Attn.QIdx → EReal) (V m c main_v0 : Attn.KIdx → EReal) (V m c main_v1 : Attn.KIdx → EReal)) (funext fun a => Fin.ext ?_)
  match a with
  | ⟨0, _⟩ => show t.val / 128 % 2 = win0_1.index t 0 * 1 + 1 * 0; omega
  | ⟨1, _⟩ => show h.val = win0_1.index t 1 * 16 + 1 * h.val; omega
  | ⟨2, _⟩ => show t.val / 8 % 16 * 128 + i.val = win0_1.index t 2 * 128 + 1 * i.val; omega
  | ⟨3, _⟩ => show d.val = win0_1.index t 3 * 64 + 1 * d.val; omega

/-- An index of the output array is in point `t`'s block iff each coordinate is in the block's range on its axis. -/
theorem mem_blkO (t : Fin cfg0.N) (x : S2x16x2048x64.Idx) :
    x ∈ ((cfg0.win 1).blk t).view.set ↔ ∀ a : Fin 4, win0_1.index t a * S1x16x128x64.size a ≤ (x a).val ∧ (x a).val < win0_1.index t a * S1x16x128x64.size a + S1x16x128x64.size a := by
  show x ∈ ((View.whole main_v2_0).slice (win0_1.rect t)).set ↔ _
  rw [View.set_slice_whole, Rect.mem_set_unit]
  exact Iff.rfl

/-- Every index of the output array is in the block of the last point of its batch's and query tile's run. -/
theorem coverO (x : S2x16x2048x64.Idx) : ∃ t : Fin cfg0.N, (cfg0.win 1).flush t = true ∧ x ∈ ((cfg0.win 1).blk t).view.set := by
  have h0 : (x 0).val < 2 := (x 0).isLt
  have h1 : (x 1).val < 16 := (x 1).isLt
  have h2 : (x 2).val < 2048 := (x 2).isLt
  have h3 : (x 3).val < 64 := (x 3).isLt
  have hN : cfg0.N = 256 := N_0
  let t : Fin cfg0.N := ⟨(x 0).val * 128 + (x 2).val / 128 * 8 + 7, by rw [hN]; omega⟩
  have ht : t.val = (x 0).val * 128 + (x 2).val / 128 * 8 + 7 := rfl
  obtain ⟨e0, e1, e2, e3⟩ := Grid.win1_index t
  refine ⟨t, (flush0_1 t).mpr (by omega), ?_⟩
  rw [mem_blkO]
  intro a
  match a with
  | ⟨0, _⟩ => show win0_1.index t 0 * 1 ≤ (x 0).val ∧ (x 0).val < win0_1.index t 0 * 1 + 1; omega
  | ⟨1, _⟩ => show win0_1.index t 1 * 16 ≤ (x 1).val ∧ (x 1).val < win0_1.index t 1 * 16 + 16; omega
  | ⟨2, _⟩ => show win0_1.index t 2 * 128 ≤ (x 2).val ∧ (x 2).val < win0_1.index t 2 * 128 + 128; omega
  | ⟨3, _⟩ => show win0_1.index t 3 * 64 ≤ (x 3).val ∧ (x 3).val < win0_1.index t 3 * 64 + 64; omega

/-- THE OUTPUT ARRAY after the run. -/
theorem finalO (c : Dev nD) : (dats m 0 c).arrAt 1 cfg0.N = Attn.output (V m c main_arg0 : Attn.QIdx → EReal) (V m c main_v0 : Attn.KIdx → EReal) (V m c main_v1 : Attn.KIdx → EReal) :=
  (dats m 0 c).arrAt_eq_of_cover 1 _ (fun t hf => flushedO_eq m c t hf) coverO

/-! ## The run, read -/

/-- The key array as the kernel's host side lays it out. -/
abbrev keysOf (c : Dev nD) : Attn.KIdx → EReal :=
  shapeCast S2x16x64x2048 (m ((c : Thread nD τ).loc main_arg1)) shapeCasts_S2x16x2048x64_S2x16x64x2048
/-- The value array with its last two axes swapped. -/
abbrev valuesOf (c : Dev nD) : Attn.KIdx → EReal :=
  transpose S2x16x64x2048 [0, 1, 3, 2] (m ((c : Thread nD τ).loc main_arg2)) transposes_S2x16x2048x64_S2x16x64x2048_0_1_3_2

/-- Every weakly fair execution of the kernel's program terminates with the two result arrays at the specification's
    output and weights of the argument arrays, and the arguments unchanged. -/
theorem run : θ_run defs (onTc (τ := τ) (main (F := Ideal))) ⟨m, fun _ => 0, ρ⟩ fun r => ∀ c : Dev nD,
      r.2.mem ((c : Thread nD τ).loc main_v2_0)
        = Attn.output (m ((c : Thread nD τ).loc main_arg0)) (keysOf m c) (valuesOf m c)
      ∧ r.2.mem ((c : Thread nD τ).loc main_v2_1)
        = Attn.weights (m ((c : Thread nD τ).loc main_arg0)) (keysOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨ho, hw, hrest⟩ := h c
  have eq : (V m c main_arg0 : Attn.QIdx → EReal) = m ((c : Thread nD τ).loc main_arg0) := V_main_arg0 m c
  have ek : (V m c main_v0 : Attn.KIdx → EReal) = keysOf m c := HostSide.V_keys m c
  have ev : (V m c main_v1 : Attn.KIdx → EReal) = valuesOf m c := HostSide.V_values m c
  refine ⟨ho.trans ?_, hw.trans ?_, hrest⟩
  · rw [finalO m c, eq, ek, ev]
  · rw [finalW m c, eq, ek]

end Cert.KernelIdeal.KValue

end
-- ==== Proof.Consts.lean ====
/-
  The float words the two programs spell, as extended reals, and the two laws between them: dividing by eight is
  multiplying by one eighth, on every extended real; and a maximum with minus infinity changes nothing.
-/
import proofs.«165156_j19481971654760_2_alg».proof.Proof.Spec

noncomputable section

namespace Attn

open Idealize.ShloMosaic

/-- The reference's divisor `8.0` denotes the real 8. -/
theorem ofBits_eight : Ideal.ofBits .f32 0x41000000#32 = ((8 : ℝ) : EReal) := by
  simp [Ideal.ofBits, Ideal.ieee, -EReal.coe_mul]; norm_num

/-- The kernel's scale `0.125` denotes the real one eighth. -/
theorem scaleW_eq : scaleW = ((1 / 8 : ℝ) : EReal) := by
  show Ideal.ofBits .f32 0x3E000000#32 = _
  simp [Ideal.ofBits, Ideal.ieee, -EReal.coe_mul]; norm_num

/-- The word the maxima start from denotes minus infinity. -/
theorem botW_eq : botW = ⊥ := by
  show Ideal.ofBits .f32 0xFF800000#32 = _
  simp [Ideal.ofBits, Ideal.ieee]

/-- Dividing by eight is multiplying by one eighth, on every extended real. -/
theorem div_eight (x : EReal) : Ideal.div x (Ideal.ofBits .f32 0x41000000#32) = x * scaleW := by
  rw [ofBits_eight, Ideal.div_coe (by norm_num), scaleW_eq]

/-- A maximum with minus infinity changes nothing. -/
theorem max_botW (x : EReal) : max botW x = x := by
  rw [botW_eq]; exact max_eq_right bot_le

end Attn

end
-- ==== Proof.RefValue.lean ====
/-
  The reference, read index by index: its weights are the softmax across the heads of the scaled scores, its output
  the weights times the values.  Its scores are DIVIDED by eight where the kernel multiplies by one eighth, and its
  maximum is taken once more against minus infinity; both are the same extended reals.
-/
import proofs.«165156_j19481971654760_2_alg».proof.Proof.Consts
import proofs.«165156_j19481971654760_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S2x16x2048x64, .f32⟩ : BufTy).Contents (Elt Ideal))

/-- Reducing a (2, 16, 2048, 2048) array over its head axis leaves a (2, 2048, 2048) array. -/
theorem hred : S2x16x2048x2048.Reduces [1] S2x2048x2048 := by decide

/-- Inserting head `k` at axis 1 of (b, i, j) gives (b, k, i, j). -/
theorem lift_heads (b : Fin 2) (i j : Fin 2048) (k : Fin 16) : hred.lift (ix3 b i j) k = ix4 b k i j :=
  funext fun a => Fin.ext (by match a with | ⟨0, _⟩ => rfl | ⟨1, _⟩ => rfl | ⟨2, _⟩ => rfl | ⟨3, _⟩ => rfl)

/-- The scaled score at (b, h, i, j). -/
theorem score_apply (b : Fin 2) (h : Fin 16) (i j : Fin 2048) :
    val_main_v3 (F := Ideal) x0 x1 (ix4 b h i j)
      = Attn.score (fun d => x0 (ix4 b h i d)) (fun d => val_main_v0 (F := Ideal) x1 (ix4 b h d j)) := by
  rw [val_main_v3_apply, val_main_v1_apply, val_main_v2_apply, val_main_cst_apply]
  show Ideal.div _ (Ideal.ofBits .f32 0x41000000#32) = _
  rw [Attn.div_eight]
  unfold Attn.score
  refine congrArg (· * Attn.scaleW) (Finset.sum_congr rfl fun d _ => ?_)
  refine congrArg₂ (· * ·) (congrArg x0 ?_) (congrArg (val_main_v0 (F := Ideal) x1) ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-- The sixteen heads' scores at (b, i, j), as the specification names them. -/
theorem scores_eq (b : Fin 2) (i j : Fin 2048) :
    (fun h' : Fin 16 => val_main_v3 (F := Ideal) x0 x1 (ix4 b h' i j)) = Attn.scores x0 (val_main_v0 (F := Ideal) x1) b i j :=
  funext fun h' => score_apply x0 x1 b h' i j

/-- The maximum over the heads at (b, i, j): the extra maximum against minus infinity changes nothing. -/
theorem max_apply (b : Fin 2) (i j : Fin 2048) :
    val_main_v6 (F := Ideal) x0 x1 (ix3 b i j) = Attn.smax (Attn.scores x0 (val_main_v0 (F := Ideal) x1) b i j) := by
  rw [val_main_v6_apply, val_main_v5_apply, val_main_cst_1_apply]
  show max Attn.botW (val_main_v4 (F := Ideal) x0 x1 (ix3 b i j)) = _
  rw [Attn.max_botW]
  unfold val_main_v4
  refine (Host.reduce_eq_fold_single (FloatOps.maximumf (F := Ideal) (φ := .f32)) (val_main_v3 (F := Ideal) x0 x1) (val_main_cst_0 (F := Ideal))
    reducesTo_S2x16x2048x2048_S2x2048x2048_d1 hred h_S_ (ix3 b i j)).trans ?_
  have e : (val_main_v3 (F := Ideal) x0 x1 ∘ hred.lift (ix3 b i j)) = Attn.scores x0 (val_main_v0 (F := Ideal) x1) b i j := by
    rw [← scores_eq]
    exact funext fun k => congrArg (val_main_v3 (F := Ideal) x0 x1) (lift_heads b i j k)
  rw [e]
  rfl

/-- A head's unnormalized weight at (b, h, i, j). -/
theorem exp_apply (b : Fin 2) (h : Fin 16) (i j : Fin 2048) :
    val_main_v10 (F := Ideal) x0 x1 (ix4 b h i j) = Attn.sexp (Attn.scores x0 (val_main_v0 (F := Ideal) x1) b i j) h := by
  rw [val_main_v10_apply, val_main_v9_apply, val_main_v8_apply, val_main_v7_apply]
  have e : idx_main_v7 (idx_main_v8 (ix4 b h i j)) = ix3 b i j :=
    funext fun a => Fin.ext (by match a with | ⟨0, _⟩ => rfl | ⟨1, _⟩ => rfl | ⟨2, _⟩ => rfl)
  rw [e, max_apply, score_apply]
  rfl

/-- The sum of the heads' unnormalized weights at (b, i, j). -/
theorem sum_apply (b : Fin 2) (i j : Fin 2048) :
    val_main_v11 (F := Ideal) x0 x1 (ix3 b i j) = ∑ h' : Fin 16, Attn.sexp (Attn.scores x0 (val_main_v0 (F := Ideal) x1) b i j) h' := by
  rw [val_main_v11_apply, val_main_cst_2_apply]
  show Ideal.ofBits .f32 0x00000000#32 + _ = _
  rw [Ideal.ofBits_zero_f32, zero_add]
  refine Finset.sum_congr rfl fun k _ => ?_
  have e : idx_main_v11 (ix3 b i j) k = ix4 b k i j :=
    funext fun a => Fin.ext (by match a with | ⟨0, _⟩ => rfl | ⟨1, _⟩ => rfl | ⟨2, _⟩ => rfl | ⟨3, _⟩ => rfl)
  rw [e, exp_apply]

/-- THE REFERENCE'S WEIGHTS are the specification's. -/
theorem weights_eq : val_main_v14 (F := Ideal) x0 x1 = Attn.weights x0 (val_main_v0 (F := Ideal) x1) := by
  funext x
  obtain ⟨b, h, i, j, rfl⟩ : ∃ (b : Fin 2) (h : Fin 16) (i j : Fin 2048), x = ix4 b h i j := ⟨x 0, x 1, x 2, x 3, eq_ix4 x⟩
  rw [val_main_v14_apply, val_main_v13_apply, val_main_v12_apply]
  have e : idx_main_v12 (idx_main_v13 (ix4 b h i j)) = ix3 b i j :=
    funext fun a => Fin.ext (by match a with | ⟨0, _⟩ => rfl | ⟨1, _⟩ => rfl | ⟨2, _⟩ => rfl)
  rw [e, sum_apply, exp_apply]
  rfl

/-- THE REFERENCE'S OUTPUT is the specification's, `VT` being the value array with its last two axes swapped. -/
theorem output_eq (VT : Attn.KIdx → EReal) (hVT : ∀ (b : Fin 2) (h : Fin 16) (d : Fin 64) (j : Fin 2048), VT (ix4 b h d j) = x2 (ix4 b h j d)) :
    val_main_v15 (F := Ideal) x0 x1 x2 = Attn.output x0 (val_main_v0 (F := Ideal) x1) VT := by
  funext x
  obtain ⟨b, h, i, d, rfl⟩ : ∃ (b : Fin 2) (h : Fin 16) (i : Fin 2048) (d : Fin 64), x = ix4 b h i d := ⟨x 0, x 1, x 2, x 3, eq_ix4 x⟩
  rw [val_main_v15_apply, weights_eq]
  show _ = ∑ j : Fin 2048, Attn.weights x0 (val_main_v0 (F := Ideal) x1) (ix4 b h i j) * VT (ix4 b h d j)
  refine Finset.sum_congr rfl fun k _ => ?_
  rw [hVT]
  refine congrArg₂ (· * ·) (congrArg _ ?_) (congrArg x2 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

end Cert.ReferenceIdeal.RefValue

end
-- ==== Proof.lean ====
/-
  Attention whose softmax runs across the HEADS: for query, key and value arrays of shape (2, 16, 2048, 64) the
  key array is reshaped (not transposed) to (2, 16, 64, 2048); the score of query row i and key column j in head h
  is their inner product over the 64 features times one eighth; the weights are the softmax of the sixteen heads'
  scores at each (i, j); the output is the weights times the values.

  The kernel walks a (2, 16, 8) grid — batch, tile of 128 query rows, tile of 256 key columns.  Because the softmax
  is across the heads and every block holds all sixteen, the weights of one (query tile, key tile) block need
  nothing outside the block: they are the whole weights array's block.  The output block is reset at the first key
  tile and gains one key tile's term of the sum over the columns at each point.  The reference divides by eight where
  the kernel multiplies by one eighth, and takes its maximum once more against minus infinity; over the extended
  reals these are the same values, and a sum over 2048 columns is the sum of its eight tiles' sums, whatever the
  entries — so the precondition is never opened.
-/
import proofs.«165156_j19481971654760_2_alg».proof.Defs
import proofs.«165156_j19481971654760_2_alg».proof.Proof.Gen.Kernel
import proofs.«165156_j19481971654760_2_alg».proof.Proof.Gen.Kernel.Skeleton
import proofs.«165156_j19481971654760_2_alg».proof.Proof.Gen.Kernel.Launch
import proofs.«165156_j19481971654760_2_alg».proof.Proof.Gen.Kernel.Points
import proofs.«165156_j19481971654760_2_alg».proof.Proof.Gen.Kernel.Frame
import proofs.«165156_j19481971654760_2_alg».proof.Proof.Gen.KernelIdeal
import proofs.«165156_j19481971654760_2_alg».proof.Proof.Gen.KernelIdeal.Skeleton
import proofs.«165156_j19481971654760_2_alg».proof.Proof.Gen.KernelIdeal.Launch
import proofs.«165156_j19481971654760_2_alg».proof.Proof.Gen.KernelIdeal.Points
import proofs.«165156_j19481971654760_2_alg».proof.Proof.Gen.KernelIdeal.Frame
import proofs.«165156_j19481971654760_2_alg».proof.Proof.Gen.ReferenceIdeal
import proofs.«165156_j19481971654760_2_alg».proof.Proof.Gen.Pre_finite_inputs
import proofs.«165156_j19481971654760_2_alg».proof.Proof.Gen.KernelIdeal.Value
import proofs.«165156_j19481971654760_2_alg».proof.Proof.Gen.ReferenceIdeal.Run
import proofs.«165156_j19481971654760_2_alg».proof.Proof.Gen.ReferenceIdeal.Read
import proofs.«165156_j19481971654760_2_alg».proof.Proof.KernelValue
import proofs.«165156_j19481971654760_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's output and weights of the same three arrays. -/
theorem algebraic : Cert.algebraic_KernelIdeal_ReferenceIdeal := by
  intro m ρ m' ρ' _ hagree
  refine ⟨fun c => Attn.output (m ((c : Thread Cert.KernelIdeal.nD Cert.KernelIdeal.τ).loc Cert.KernelIdeal.main_arg0))
      (Cert.KernelIdeal.KValue.keysOf m c) (Cert.KernelIdeal.KValue.valuesOf m c),
    fun c => Attn.weights (m ((c : Thread Cert.KernelIdeal.nD Cert.KernelIdeal.τ).loc Cert.KernelIdeal.main_arg0))
      (Cert.KernelIdeal.KValue.keysOf m c),
    Cert.KernelIdeal.KValue.run m ρ, ?_⟩
  refine (θ_run Cert.ReferenceIdeal.defs _ _).mono (fun _ h c => ?_) (Cert.ReferenceIdeal.Value.run (F := Ideal) m' ρ')
  obtain ⟨h15, h14, hrest⟩ := h c
  obtain ⟨a0, a1, a2⟩ := hagree c
  refine ⟨h15.trans ?_, h14.trans ?_, hrest⟩
  · rw [Cert.ReferenceIdeal.Read.val_main_v15_eq, a0, a1, a2]
    exact Cert.ReferenceIdeal.RefValue.output_eq _ _ _ (Cert.KernelIdeal.KValue.valuesOf m c)
      (fun b h d j => Cert.KernelIdeal.HostSide.swap_apply _ b h d j)
  · rw [Cert.ReferenceIdeal.Read.val_main_v14_eq, a0, a1]
    exact Cert.ReferenceIdeal.RefValue.weights_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
